-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_arg14 : FVec F S128 .f32) (main_arg15 : FVec F S128x256 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg15
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  main_v78

def fn_part3 {F : FTy → Type} [FloatOps F] (main_arg11 : FVec F S128 .f32) (main_arg12 : FVec F S128x256 .f32) (main_arg13 : FVec F S128x256 .f32) (main_arg14 : FVec F S128 .f32) (main_arg15 : FVec F S128x256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_arg15 main_v63 main_v67

def fn_part2 {F : FTy → Type} [FloatOps F] (main_arg7 : FVec F S256x128 .f32) (main_arg8 : FVec F S256 .f32) (main_arg9 : FVec F S256x128 .f32) (main_arg10 : FVec F S128x256 .f32) (main_arg11 : FVec F S128 .f32) (main_arg12 : FVec F S128x256 .f32) (main_arg13 : FVec F S128x256 .f32) (main_arg14 : FVec F S128 .f32) (main_arg15 : FVec F S128x256 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_arg13 main_arg14 main_arg15 main_v48 main_v49 main_v50

def fn_part1 {F : FTy → Type} [FloatOps F] (main_arg4 : FVec F S256x128 .f32) (main_arg5 : FVec F S256 .f32) (main_arg6 : FVec F S256x128 .f32) (main_arg7 : FVec F S256x128 .f32) (main_arg8 : FVec F S256 .f32) (main_arg9 : FVec F S256x128 .f32) (main_arg10 : FVec F S128x256 .f32) (main_arg11 : FVec F S128 .f32) (main_arg12 : FVec F S128x256 .f32) (main_arg13 : FVec F S128x256 .f32) (main_arg14 : FVec F S128 .f32) (main_arg15 : FVec F S128x256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x128 .f32) (main_arg1 : FVec F S200000x128 .f32) (main_arg2 : FVec F S128x128 .f32) (main_arg3 : FVec F S128 .f32) (main_arg4 : FVec F S256x128 .f32) (main_arg5 : FVec F S256 .f32) (main_arg6 : FVec F S256x128 .f32) (main_arg7 : FVec F S256x128 .f32) (main_arg8 : FVec F S256 .f32) (main_arg9 : FVec F S256x128 .f32) (main_arg10 : FVec F S128x256 .f32) (main_arg11 : FVec F S128 .f32) (main_arg12 : FVec F S128x256 .f32) (main_arg13 : FVec F S128x256 .f32) (main_arg14 : FVec F S128 .f32) (main_arg15 : FVec F S128x256 .f32) (main_arg16 : IVec S600000 32) (main_arg17 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S200000x128 : Shape := ⟨2, ![200000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S1x256 : Shape := ⟨2, ![1, 256]⟩
abbrev S200000x256 : Shape := ⟨2, ![200000, 256]⟩
abbrev S4000x128 : Shape := ⟨2, ![4000, 128]⟩
abbrev S4000x256 : Shape := ⟨2, ![4000, 256]⟩
abbrev S100000x256 : Shape := ⟨2, ![100000, 256]⟩
abbrev S600000x256 : Shape := ⟨2, ![600000, 256]⟩

abbrev nBuf : Space → Nat
  | .hbm => 94
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S256, .f32⟩
  | .hbm, ⟨9, _⟩ => ⟨S256x128, .f32⟩
  | .hbm, ⟨10, _⟩ => ⟨S128x256, .f32⟩
  | .hbm, ⟨11, _⟩ => ⟨S128, .f32⟩
  | .hbm, ⟨12, _⟩ => ⟨S128x256, .f32⟩
  | .hbm, ⟨13, _⟩ => ⟨S128x256, .f32⟩
  | .hbm, ⟨14, _⟩ => ⟨S128, .f32⟩
  | .hbm, ⟨15, _⟩ => ⟨S128x256, .f32⟩
  | .hbm, ⟨16, _⟩ => ⟨S600000, .i32⟩
  | .hbm, ⟨17, _⟩ => ⟨S600000, .i32⟩
  | .hbm, ⟨18, _⟩ => ⟨S128x128, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S256x128, .f32⟩
  | .hbm, ⟨27, _⟩ => ⟨S100000x128, .bf16⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .bf16⟩
  | .hbm, ⟨37, _⟩ => ⟨S600000x128, .f32⟩
  | .hbm, ⟨38, _⟩ => ⟨S_, .f32⟩
  | .hbm, ⟨39, _⟩ => ⟨S200000x128, .f32⟩
  | .hbm, ⟨40, _⟩ => ⟨S600000x1, .i32⟩
  | .hbm, ⟨41, _⟩ => ⟨S200000x128, .f32⟩
  | .hbm, ⟨42, _⟩ => ⟨S1x128, .f32⟩
  | .hbm, ⟨43, _⟩ => ⟨S1x256, .f32⟩
  | .hbm, ⟨44, _⟩ => ⟨S200000x256, .bf16⟩
  | .hbm, ⟨45, _⟩ => ⟨S200000x128, .bf16⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .bf16⟩
  | .hbm, ⟨55, _⟩ => ⟨S600000x128, .f32⟩
  | .hbm, ⟨56, _⟩ => ⟨S_, .f32⟩
  | .hbm, ⟨57, _⟩ => ⟨S100000x128, .f32⟩
  | .hbm, ⟨58, _⟩ => ⟨S600000x1, .i32⟩
  | .hbm, ⟨59, _⟩ => ⟨S100000x128, .f32⟩
  | .hbm, ⟨60, _⟩ => ⟨S1x256, .f32⟩
  | .hbm, ⟨61, _⟩ => ⟨S100000x256, .bf16⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x256, .bf16⟩
  | .hbm, ⟨71, _⟩ => ⟨S600000x256, .f32⟩
  | .hbm, ⟨72, _⟩ => ⟨S_, .f32⟩
  | .hbm, ⟨73, _⟩ => ⟨S200000x256, .f32⟩
  | .hbm, ⟨74, _⟩ => ⟨S600000x1, .i32⟩
  | .hbm, ⟨75, _⟩ => ⟨S200000x256, .f32⟩
  | .hbm, ⟨76, _⟩ => ⟨S1x128, .f32⟩
  | .hbm, ⟨77, _⟩ => ⟨S200000x128, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x256, .bf16⟩
  | .hbm, ⟨87, _⟩ => ⟨S600000x256, .f32⟩
  | .hbm, ⟨88, _⟩ => ⟨S_, .f32⟩
  | .hbm, ⟨89, _⟩ => ⟨S100000x256, .f32⟩
  | .hbm, ⟨90, _⟩ => ⟨S600000x1, .i32⟩
  | .hbm, ⟨91, _⟩ => ⟨S100000x256, .f32⟩
  | .hbm, ⟨92, _⟩ => ⟨S1x128, .f32⟩
  | .hbm, ⟨93, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S4000x256, .bf16⟩
  | .local _ .vmem, ⟨10, _⟩ => ⟨S4000x256, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x128, .bf16⟩
  | .local _ .vmem, ⟨16, _⟩ => ⟨S4000x128, .bf16⟩
  | .local _ .vmem, ⟨17, _⟩ => ⟨S128x256, .f32⟩
  | .local _ .vmem, ⟨18, _⟩ => ⟨S1x256, .f32⟩
  | .local _ .vmem, ⟨19, _⟩ => ⟨S128x256, .f32⟩
  | .local _ .vmem, ⟨20, _⟩ => ⟨S4000x256, .bf16⟩
  | .local _ .vmem, ⟨21, _⟩ => ⟨S4000x256, .bf16⟩
  | .local _ .vmem, ⟨22, _⟩ => ⟨S4000x256, .f32⟩
  | .local _ .vmem, ⟨23, _⟩ => ⟨S4000x256, .f32⟩
  | .local _ .vmem, ⟨24, _⟩ => ⟨S4000x256, .bf16⟩
  | .local _ .vmem, ⟨25, _⟩ => ⟨S4000x256, .bf16⟩
  | .local _ .vmem, ⟨26, _⟩ => ⟨S256x128, .f32⟩
  | .local _ .vmem, ⟨27, _⟩ => ⟨S1x128, .f32⟩
  | .local _ .vmem, ⟨28, _⟩ => ⟨S256x128, .f32⟩
  | .local _ .vmem, ⟨29, _⟩ => ⟨S4000x128, .f32⟩
  | .local _ .vmem, ⟨30, _⟩ => ⟨S4000x128, .f32⟩
  | .local _ .vmem, ⟨31, _⟩ => ⟨S4000x256, .f32⟩
  | .local _ .vmem, ⟨32, _⟩ => ⟨S4000x256, .f32⟩
  | .local _ .vmem, ⟨33, _⟩ => ⟨S4000x256, .bf16⟩
  | .local _ .vmem, ⟨34, _⟩ => ⟨S4000x256, .bf16⟩
  | .local _ .vmem, ⟨35, _⟩ => ⟨S256x128, .f32⟩
  | .local _ .vmem, ⟨36, _⟩ => ⟨S1x128, .f32⟩
  | .local _ .vmem, ⟨37, _⟩ => ⟨S256x128, .f32⟩
  | .local _ .vmem, ⟨38, _⟩ => ⟨S4000x128, .f32⟩
  | .local _ .vmem, ⟨39, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_4 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_7 : Ref sig .tc := ⟨.hbm, 78, rfl⟩
abbrev main_v50 : Ref sig .tc := ⟨.hbm, 79, rfl⟩
abbrev main_v51 : Ref sig .tc := ⟨.hbm, 80, rfl⟩
abbrev main_c_8 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S128x128_S128x128_1_0 : S128x128.Transposes [1, 0] S128x128
  transposes_S256x128_S128x256_1_0 : S256x128.Transposes [1, 0] S128x256
  transposes_S128x256_S256x128_1_0 : S128x256.Transposes [1, 0] S256x128
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  shapeCasts_S128_S1x128 : S128.ShapeCasts S1x128
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  bcast_S_S100000x128 : S_.BroadcastsInDim S100000x128 (![] : Fin 0 → Fin S100000x128.rank)
  bcast_S_S200000x256 : S_.BroadcastsInDim S200000x256 (![] : Fin 0 → Fin S200000x256.rank)
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S_S100000x256 : S_.BroadcastsInDim S100000x256 (![] : Fin 0 → Fin S100000x256.rank)
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  dot_S4000x128_S128x128_S4000x128_1_0_0_1_n_n_wf : DotDims.WF S4000x128 S128x128 S4000x128 [1] [0] [0] [1] [] []
  dot_S4000x128_S128x256_S4000x256_1_0_0_1_n_n_wf : DotDims.WF S4000x128 S128x256 S4000x256 [1] [0] [0] [1] [] []
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  gather_S100000x256_S600000x1_S600000x256_1_0_n_n_0_1_1256_wf : GatherDims.WF S100000x256 S600000x1 S600000x256 [1] [0] [] [0] [] 1 ![1, 256]
  scatter_S200000x256_S600000x1_S600000x256_1_0_0_1_wf : ScatterDims.WF S200000x256 S600000x1 S600000x256 [1] [0] [0] 1
  dot_S4000x256_S256x128_S4000x128_1_0_0_1_n_n_wf : DotDims.WF S4000x256 S256x128 S4000x128 [1] [0] [0] [1] [] []
  gather_S200000x256_S600000x1_S600000x256_1_0_n_n_0_1_1256_wf : GatherDims.WF S200000x256 S600000x1 S600000x256 [1] [0] [] [0] [] 1 ![1, 256]
  scatter_S100000x256_S600000x1_S600000x256_1_0_0_1_wf : ScatterDims.WF S100000x256 S600000x1 S600000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S200000x256.size a
  hwx0_7 : ∀ i : grid0.Coords, EltTy.bits .bf16 = 32 ∨ (Rect.block (s := S200000x256) S4000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S200000x128.size a
  hwx0_8 : ∀ i : grid0.Coords, EltTy.bits .bf16 = 32 ∨ (Rect.block (s := S200000x128) S4000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S100000x256.size a
  hwx1_5 : ∀ i : grid1.Coords, EltTy.bits .bf16 = 32 ∨ (Rect.block (s := S100000x256) S4000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S200000x256.size a
  hwx2_0 : ∀ i : grid2.Coords, EltTy.bits .f32 = 32 ∨ (Rect.block (s := S200000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S200000x256.size a
  hwx2_1 : ∀ i : grid2.Coords, EltTy.bits .bf16 = 32 ∨ (Rect.block (s := S200000x256) S4000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S200000x128.size a
  hwx2_5 : ∀ i : grid2.Coords, EltTy.bits .f32 = 32 ∨ (Rect.block (s := S200000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S100000x256.size a
  hwx3_0 : ∀ i : grid3.Coords, EltTy.bits .f32 = 32 ∨ (Rect.block (s := S100000x256) S4000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x256.size a ≤ S100000x256.size a
  hwx3_1 : ∀ i : grid3.Coords, EltTy.bits .bf16 = 32 ∨ (Rect.block (s := S100000x256) S4000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf

abbrev win0_0 : Pipeline.Window sig grid0 :=
  Pipeline.Window.ofSpec (Memref.whole main_v20) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_0) S4000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_1) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v34) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23_0) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S4000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v8) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S200000x256 : Shape := ⟨2, ![200000, 256]⟩
abbrev S1x256 : Shape := ⟨2, ![1, 256]⟩
abbrev S100000x256 : Shape := ⟨2, ![100000, 256]⟩
abbrev S600000x256 : Shape := ⟨2, ![600000, 256]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S256, .f32⟩
  | .hbm, ⟨9, _⟩ => ⟨S256x128, .f32⟩
  | .hbm, ⟨10, _⟩ => ⟨S128x256, .f32⟩
  | .hbm, ⟨11, _⟩ => ⟨S128, .f32⟩
  | .hbm, ⟨12, _⟩ => ⟨S128x256, .f32⟩
  | .hbm, ⟨13, _⟩ => ⟨S128x256, .f32⟩
  | .hbm, ⟨14, _⟩ => ⟨S128, .f32⟩
  | .hbm, ⟨15, _⟩ => ⟨S128x256, .f32⟩
  | .hbm, ⟨16, _⟩ => ⟨S600000, .i32⟩
  | .hbm, ⟨17, _⟩ => ⟨S600000, .i32⟩
  | .hbm, ⟨18, _⟩ => ⟨S128x128, .f32⟩
  | .hbm, ⟨19, _⟩ => ⟨S200000x128, .f32⟩
  | .hbm, ⟨20, _⟩ => ⟨S1x128, .f32⟩
  | .hbm, ⟨21, _⟩ => ⟨S200000x128, .f32⟩
  | .hbm, ⟨22, _⟩ => ⟨S200000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S200000x128, .f32⟩
  | .hbm, ⟨34, _⟩ => ⟨S600000x1, .i32⟩
  | .hbm, ⟨35, _⟩ => ⟨S200000x128, .f32⟩
  | .hbm, ⟨36, _⟩ => ⟨S128x256, .f32⟩
  | .hbm, ⟨37, _⟩ => ⟨S200000x256, .f32⟩
  | .hbm, ⟨38, _⟩ => ⟨S1x256, .f32⟩
  | .hbm, ⟨39, _⟩ => ⟨S200000x256, .f32⟩
  | .hbm, ⟨40, _⟩ => ⟨S200000x256, .f32⟩
  | .hbm, ⟨41, _⟩ => ⟨S128x256, .f32⟩
  | .hbm, ⟨42, _⟩ => ⟨S200000x256, .f32⟩
  | .hbm, ⟨43, _⟩ => ⟨S200000x256, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S100000x128, .f32⟩
  | .hbm, ⟨55, _⟩ => ⟨S600000x1, .i32⟩
  | .hbm, ⟨56, _⟩ => ⟨S100000x128, .f32⟩
  | .hbm, ⟨57, _⟩ => ⟨S128x256, .f32⟩
  | .hbm, ⟨58, _⟩ => ⟨S100000x256, .f32⟩
  | .hbm, ⟨59, _⟩ => ⟨S1x256, .f32⟩
  | .hbm, ⟨60, _⟩ => ⟨S100000x256, .f32⟩
  | .hbm, ⟨61, _⟩ => ⟨S100000x256, .f32⟩
  | .hbm, ⟨62, _⟩ => ⟨S128x256, .f32⟩
  | .hbm, ⟨63, _⟩ => ⟨S100000x256, .f32⟩
  | .hbm, ⟨64, _⟩ => ⟨S100000x256, .f32⟩
  | .hbm, ⟨65, _⟩ => ⟨S_, .f32⟩
  | .hbm, ⟨66, _⟩ => ⟨S200000x256, .f32⟩
  | .hbm, ⟨67, _⟩ => ⟨S200000x256, .f32⟩
  | .hbm, ⟨68, _⟩ => ⟨S_, .f32⟩
  | .hbm, ⟨69, _⟩ => ⟨S100000x256, .f32⟩
  | .hbm, ⟨70, _⟩ => ⟨S100000x256, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x256, .f32⟩
  | .hbm, ⟨80, _⟩ => ⟨S_, .f32⟩
  | .hbm, ⟨81, _⟩ => ⟨S200000x256, .f32⟩
  | .hbm, ⟨82, _⟩ => ⟨S600000x1, .i32⟩
  | .hbm, ⟨83, _⟩ => ⟨S200000x256, .f32⟩
  | .hbm, ⟨84, _⟩ => ⟨S256x128, .f32⟩
  | .hbm, ⟨85, _⟩ => ⟨S200000x128, .f32⟩
  | .hbm, ⟨86, _⟩ => ⟨S1x128, .f32⟩
  | .hbm, ⟨87, _⟩ => ⟨S200000x128, .f32⟩
  | .hbm, ⟨88, _⟩ => ⟨S200000x128, .f32⟩
  | .hbm, ⟨89, _⟩ => ⟨S256x128, .f32⟩
  | .hbm, ⟨90, _⟩ => ⟨S200000x128, .f32⟩
  | .hbm, ⟨91, _⟩ => ⟨S200000x128, .f32⟩
  | .hbm, ⟨92, _⟩ => ⟨S_, .i32⟩
  | .hbm, ⟨93, _⟩ => ⟨S600000, .i32⟩
  | .hbm, ⟨94, _⟩ => ⟨S600000, .i1⟩
  | .hbm, ⟨95, _⟩ => ⟨S_, .i32⟩
  | .hbm, ⟨96, _⟩ => ⟨S600000, .i32⟩
  | .hbm, ⟨97, _⟩ => ⟨S600000, .i32⟩
  | .hbm, ⟨98, _⟩ => ⟨S600000, .i32⟩
  | .hbm, ⟨99, _⟩ => ⟨S600000x1, .i32⟩
  | .hbm, ⟨100, _⟩ => ⟨S600000x256, .f32⟩
  | .hbm, ⟨101, _⟩ => ⟨S_, .f32⟩
  | .hbm, ⟨102, _⟩ => ⟨S100000x256, .f32⟩
  | .hbm, ⟨103, _⟩ => ⟨S600000x1, .i32⟩
  | .hbm, ⟨104, _⟩ => ⟨S100000x256, .f32⟩
  | .hbm, ⟨105, _⟩ => ⟨S256x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S256x128, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_cst : Ref sig .tc := ⟨.hbm, 65, rfl⟩
abbrev main_call0_v0 : Ref sig .tc := ⟨.hbm, 66, rfl⟩
abbrev main_v41 : Ref sig .tc := ⟨.hbm, 67, rfl⟩
abbrev main_call1_cst : Ref sig .tc := ⟨.hbm, 68, rfl⟩
abbrev main_call1_v0 : Ref sig .tc := ⟨.hbm, 69, rfl⟩
abbrev main_v42 : Ref sig .tc := ⟨.hbm, 70, rfl⟩
abbrev main_c_4 : Ref sig .tc := ⟨.hbm, 71, rfl⟩
abbrev main_v43 : Ref sig .tc := ⟨.hbm, 72, rfl⟩
abbrev main_v44 : Ref sig .tc := ⟨.hbm, 73, rfl⟩
abbrev main_c_5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_7 : Ref sig .tc := ⟨.hbm, 92, rfl⟩
abbrev main_v61 : Ref sig .tc := ⟨.hbm, 93, rfl⟩
abbrev main_v62 : Ref sig .tc := ⟨.hbm, 94, rfl⟩
abbrev main_c_8 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_9 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  transposes_S256x128_S128x256_1_0 : S256x128.Transposes [1, 0] S128x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S100000x128 : S_.BroadcastsInDim S100000x128 (![] : Fin 0 → Fin S100000x128.rank)
  bcast_S1x256_S100000x256_0_1 : S1x256.BroadcastsInDim S100000x256 (![0, 1] : Fin 2 → Fin S100000x256.rank)
  bcast_S_S200000x256 : S_.BroadcastsInDim S200000x256 (![] : Fin 0 → Fin S200000x256.rank)
  bcast_S_S100000x256 : S_.BroadcastsInDim S100000x256 (![] : Fin 0 → Fin S100000x256.rank)
  transposes_S128x256_S256x128_1_0 : S128x256.Transposes [1, 0] S256x128
  bcast_S1x128_S100000x128_0_1 : S1x128.BroadcastsInDim S100000x128 (![0, 1] : Fin 2 → Fin S100000x128.rank)
  dot_S200000x128_S128x128_S200000x128_1_0_0_1_n_n_wf : DotDims.WF S200000x128 S128x128 S200000x128 [1] [0] [0] [1] [] []
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x256_S200000x256_1_0_0_1_n_n_wf : DotDims.WF S200000x128 S128x256 S200000x256 [1] [0] [0] [1] [] []
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S200000x256_S600000x1_S600000x256_1_0_0_1_wf : ScatterDims.WF S200000x256 S600000x1 S600000x256 [1] [0] [0] 1
  dot_S200000x256_S256x128_S200000x128_1_0_0_1_n_n_wf : DotDims.WF S200000x256 S256x128 S200000x128 [1] [0] [0] [1] [] []
  gather_S200000x256_S600000x1_S600000x256_1_0_n_n_0_1_1256_wf : GatherDims.WF S200000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x128_S100000x128_1_0_0_1_n_n_wf : DotDims.WF S100000x256 S256x128 S100000x128 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The idealized kernel's whole run, with the final memory named.

  The program is four launches of row-tiled kernels among stretches of host operations. Every weakly fair execution ends,
  without a fault, in a memory whose every buffer that outlives the launches holds the contents of the last boundary
  of the fold through the program: a host stretch applies its operations to the contents before it, a launch replaces
  its operands' arrays by what its write-backs leave and keeps every other buffer. The statement about the arguments
  alone (they end as launched) is this one read at the argument buffers; the two results are this one read at the two
  result buffers.
-/
import proofs.«142014_j32839319945244_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that outlives the launches
    ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.WholeRun

end
-- ==== Proof.LayerForms.lean ====
/-
  The network's three kinds of layer, as whole-array operations over the extended reals.

  A linear layer is X · W + B, a graph-convolution layer is (A · W_l + B) + H · W_r, and the hidden layers apply the
  rectifier max(·, 0) to the latter; B repeats one bias row over all rows. They are written with the host's own
  operations (the plain matrix product, the spread of a row, the spread of the zero constant, the pointwise sum and
  maximum), so that an array computed by the reference in these steps is such a layer by definition.
-/
import Idealize.ShloMosaic.PureOps.Ideal
import Idealize.ShloMosaic.PureOps.Dims

noncomputable section

namespace Cert.Layers

open Idealize.ShloMosaic

/-- X · W + (the bias row over all rows). -/
def linearLayer {M k n : Nat} {φ₁ φ₂ : FTy}
    (hh : (⟨2, ![1, n]⟩ : Shape).BroadcastsInDim ⟨2, ![M, n]⟩ (![0, 1] : Fin 2 → Fin 2))
    (X : FVec Ideal ⟨2, ![M, k]⟩ φ₁) (W : FVec Ideal ⟨2, ![k, n]⟩ φ₂) (b : FVec Ideal ⟨2, ![1, n]⟩ .f32) :
    FVec Ideal ⟨2, ![M, n]⟩ .f32 :=
  addf (Host.dotGeneral (DotDims.plain M k n) none X W) (broadcastInDim ⟨2, ![M, n]⟩ ![0, 1] hh b)

/-- (A · W_l + (the bias row over all rows)) + H · W_r. -/
def convLayer {M k n : Nat} {φ₁ φ₂ φ₃ φ₄ : FTy}
    (hh : (⟨2, ![1, n]⟩ : Shape).BroadcastsInDim ⟨2, ![M, n]⟩ (![0, 1] : Fin 2 → Fin 2))
    (A : FVec Ideal ⟨2, ![M, k]⟩ φ₁) (H : FVec Ideal ⟨2, ![M, k]⟩ φ₃)
    (Wl : FVec Ideal ⟨2, ![k, n]⟩ φ₂) (b : FVec Ideal ⟨2, ![1, n]⟩ .f32) (Wr : FVec Ideal ⟨2, ![k, n]⟩ φ₄) :
    FVec Ideal ⟨2, ![M, n]⟩ .f32 :=
  addf (addf (Host.dotGeneral (DotDims.plain M k n) none A Wl) (broadcastInDim ⟨2, ![M, n]⟩ ![0, 1] hh b))
    (Host.dotGeneral (DotDims.plain M k n) none H Wr)

/-- max((A · W_l + (the bias row over all rows)) + H · W_r, 0). -/
def convReluLayer {M k n : Nat} {φ₁ φ₂ φ₃ φ₄ : FTy}
    (hh : (⟨2, ![1, n]⟩ : Shape).BroadcastsInDim ⟨2, ![M, n]⟩ (![0, 1] : Fin 2 → Fin 2))
    (hz : (⟨0, ![]⟩ : Shape).BroadcastsInDim ⟨2, ![M, n]⟩ (![] : Fin 0 → Fin 2))
    (A : FVec Ideal ⟨2, ![M, k]⟩ φ₁) (H : FVec Ideal ⟨2, ![M, k]⟩ φ₃)
    (Wl : FVec Ideal ⟨2, ![k, n]⟩ φ₂) (b : FVec Ideal ⟨2, ![1, n]⟩ .f32) (Wr : FVec Ideal ⟨2, ![k, n]⟩ φ₄) :
    FVec Ideal ⟨2, ![M, n]⟩ .f32 :=
  maximumf (convLayer hh A H Wl b Wr) (broadcastInDim ⟨2, ![M, n]⟩ ![] hz (constant ⟨0, ![]⟩ .f32 0x00000000#32))

end Cert.Layers

end
-- ==== Proof.Net.lean ====
/-
  The two-layer network on the user–issue graph, as one function of the argument arrays over the extended reals.

  Every edge e joins user src(e) to issue dst(e). Aggregating towards the issues sums, for each issue, the feature rows of the
  users on its edges (a row gather through the source indices followed by an accumulating row scatter through the
  destination indices, into zeros); aggregating towards the users is the same with the roles exchanged. An index below
  zero is first wrapped by the number of rows of the table it reads. The issues' raw features go through a linear
  projection. Then two rounds of graph convolution: each node type's new features are (aggregate · W_rel + b_rel) +
  own · W_root, the first round followed by the rectifier. The weights arrive stored output-major and are transposed; a bias
  vector is laid out as one row and repeated over all rows.
-/
import proofs.«142014_j32839319945244_2_alg».proof.ReferenceIdeal
import proofs.«142014_j32839319945244_2_alg».proof.Proof.LayerForms

noncomputable section

namespace Cert.Net

open Idealize.ShloMosaic Cert.ReferenceIdeal Cert.Layers

-- the well-formedness of the program's gather, scatter and product records is among its stated side conditions
variable [Facts₀]

/-- An edge-index array. -/
abbrev EdgeIdx := (⟨S600000, .i32⟩ : BufTy).Contents (Elt Ideal)

/-- The argument arrays. -/
structure Params where
  xUser : FVec Ideal S100000x128 .f32
  xIssue : FVec Ideal S200000x128 .f32
  wProj : FVec Ideal S128x128 .f32
  bProj : FVec Ideal S128 .f32
  w1IssueRel : FVec Ideal S256x128 .f32
  b1Issue : FVec Ideal S256 .f32
  w1IssueRoot : FVec Ideal S256x128 .f32
  w1UserRel : FVec Ideal S256x128 .f32
  b1User : FVec Ideal S256 .f32
  w1UserRoot : FVec Ideal S256x128 .f32
  w2IssueRel : FVec Ideal S128x256 .f32
  b2Issue : FVec Ideal S128 .f32
  w2IssueRoot : FVec Ideal S128x256 .f32
  w2UserRel : FVec Ideal S128x256 .f32
  b2User : FVec Ideal S128 .f32
  w2UserRoot : FVec Ideal S128x256 .f32
  src : EdgeIdx
  dst : EdgeIdx

/-! ## The side conditions of the layout operations (all decidable) -/

theorem sqT : S128x128.Transposes [1, 0] S128x128 := by decide
theorem hidT : S256x128.Transposes [1, 0] S128x256 := by decide
theorem outT : S128x256.Transposes [1, 0] S256x128 := by decide
theorem asRow128 : S128.BroadcastsInDim S1x128 (![1] : Fin 1 → Fin 2) := by decide
theorem asRow256 : S256.BroadcastsInDim S1x256 (![1] : Fin 1 → Fin 2) := by decide
theorem rows128I : S1x128.BroadcastsInDim S200000x128 (![0, 1] : Fin 2 → Fin 2) := by decide
theorem rows128U : S1x128.BroadcastsInDim S100000x128 (![0, 1] : Fin 2 → Fin 2) := by decide
theorem rows256I : S1x256.BroadcastsInDim S200000x256 (![0, 1] : Fin 2 → Fin 2) := by decide
theorem rows256U : S1x256.BroadcastsInDim S100000x256 (![0, 1] : Fin 2 → Fin 2) := by decide
theorem zero128I : S_.BroadcastsInDim S200000x128 (![] : Fin 0 → Fin 2) := by decide
theorem zero128U : S_.BroadcastsInDim S100000x128 (![] : Fin 0 → Fin 2) := by decide
theorem zero256I : S_.BroadcastsInDim S200000x256 (![] : Fin 0 → Fin 2) := by decide
theorem zero256U : S_.BroadcastsInDim S100000x256 (![] : Fin 0 → Fin 2) := by decide
theorem splatEdges : S_.BroadcastsInDim S600000 (![] : Fin 0 → Fin 1) := by decide
theorem asColumn : S600000.BroadcastsInDim S600000x1 (![0] : Fin 1 → Fin 2) := by decide

/-! ## Edge indices -/

/-- The rows a gather reads: an index below zero wrapped by the table's number of rows `n`, as a one-column array. -/
def rowsOf (n : BitVec 32) (idx : EdgeIdx) : (⟨S600000x1, .i32⟩ : BufTy).Contents (Elt Ideal) :=
  broadcastInDim S600000x1 ![0] asColumn
    (select (cmpi .slt idx (broadcastInDim S600000 ![] splatEdges (constantI S_ 32 0#32)))
      (addi idx (broadcastInDim S600000 ![] splatEdges (constantI S_ 32 n))) idx)

/-- The slots a scatter adds into: the indices as a one-column array. -/
def slotsOf (idx : EdgeIdx) : (⟨S600000x1, .i32⟩ : BufTy).Contents (Elt Ideal) :=
  broadcastInDim S600000x1 ![0] asColumn idx

/-! ## Aggregation along the edges -/

/-- For each issue, the sum of the 128-wide rows of the users on its edges. -/
def usersToIssues128 (P : Params) (x : FVec Ideal S100000x128 .f32) : FVec Ideal S200000x128 .f32 :=
  Host.scatterAdd scatter_S200000x128_S600000x1_S600000x128_1_0_0_1
    (broadcastInDim S200000x128 ![] zero128I (constant S_ .f32 0x00000000#32)) (slotsOf P.dst)
    (Host.gather gather_S100000x128_S600000x1_S600000x128_1_0_n_n_0_1_1128 x (rowsOf 100000#32 P.src))

/-- For each user, the sum of the 128-wide rows of the issues on its edges. -/
def issuesToUsers128 (P : Params) (x : FVec Ideal S200000x128 .f32) : FVec Ideal S100000x128 .f32 :=
  Host.scatterAdd scatter_S100000x128_S600000x1_S600000x128_1_0_0_1
    (broadcastInDim S100000x128 ![] zero128U (constant S_ .f32 0x00000000#32)) (slotsOf P.src)
    (Host.gather gather_S200000x128_S600000x1_S600000x128_1_0_n_n_0_1_1128 x (rowsOf 200000#32 P.dst))

/-- For each issue, the sum of the 256-wide rows of the users on its edges. -/
def usersToIssues256 (P : Params) (x : FVec Ideal S100000x256 .f32) : FVec Ideal S200000x256 .f32 :=
  Host.scatterAdd scatter_S200000x256_S600000x1_S600000x256_1_0_0_1
    (broadcastInDim S200000x256 ![] zero256I (constant S_ .f32 0x00000000#32)) (slotsOf P.dst)
    (Host.gather gather_S100000x256_S600000x1_S600000x256_1_0_n_n_0_1_1256 x (rowsOf 100000#32 P.src))

/-- For each user, the sum of the 256-wide rows of the issues on its edges. -/
def issuesToUsers256 (P : Params) (x : FVec Ideal S200000x256 .f32) : FVec Ideal S100000x256 .f32 :=
  Host.scatterAdd scatter_S100000x256_S600000x1_S600000x256_1_0_0_1
    (broadcastInDim S100000x256 ![] zero256U (constant S_ .f32 0x00000000#32)) (slotsOf P.src)
    (Host.gather gather_S200000x256_S600000x1_S600000x256_1_0_n_n_0_1_1256 x (rowsOf 200000#32 P.dst))

/-! ## The layers -/

/-- The issues' projected features. -/
def projected (P : Params) : FVec Ideal S200000x128 .f32 :=
  linearLayer (φ₁ := .f32) (φ₂ := .f32) rows128I P.xIssue (transpose S128x128 [1, 0] P.wProj sqT)
    (broadcastInDim S1x128 ![1] asRow128 P.bProj)

/-- The issues' hidden features. -/
def hiddenIssues (P : Params) : FVec Ideal S200000x256 .f32 :=
  convReluLayer (φ₁ := .f32) (φ₂ := .f32) (φ₃ := .f32) (φ₄ := .f32) rows256I zero256I
    (usersToIssues128 P P.xUser) (projected P) (transpose S128x256 [1, 0] P.w1IssueRel hidT)
    (broadcastInDim S1x256 ![1] asRow256 P.b1Issue) (transpose S128x256 [1, 0] P.w1IssueRoot hidT)

/-- The users' hidden features. -/
def hiddenUsers (P : Params) : FVec Ideal S100000x256 .f32 :=
  convReluLayer (φ₁ := .f32) (φ₂ := .f32) (φ₃ := .f32) (φ₄ := .f32) rows256U zero256U
    (issuesToUsers128 P (projected P)) P.xUser (transpose S128x256 [1, 0] P.w1UserRel hidT)
    (broadcastInDim S1x256 ![1] asRow256 P.b1User) (transpose S128x256 [1, 0] P.w1UserRoot hidT)

/-- The issues' output features. -/
def outIssues (P : Params) : FVec Ideal S200000x128 .f32 :=
  convLayer (φ₁ := .f32) (φ₂ := .f32) (φ₃ := .f32) (φ₄ := .f32) rows128I
    (usersToIssues256 P (hiddenUsers P)) (hiddenIssues P) (transpose S256x128 [1, 0] P.w2IssueRel outT)
    (broadcastInDim S1x128 ![1] asRow128 P.b2Issue) (transpose S256x128 [1, 0] P.w2IssueRoot outT)

/-- The users' output features. -/
def outUsers (P : Params) : FVec Ideal S100000x128 .f32 :=
  convLayer (φ₁ := .f32) (φ₂ := .f32) (φ₃ := .f32) (φ₄ := .f32) rows128U
    (issuesToUsers256 P (hiddenIssues P)) (hiddenUsers P) (transpose S256x128 [1, 0] P.w2UserRel outT)
    (broadcastInDim S1x128 ![1] asRow128 P.b2User) (transpose S256x128 [1, 0] P.w2UserRoot outT)

end Cert.Net

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«142014_j32839319945244_2_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibConvBlock.lean ====
/-
  A block of rows of a graph-convolution layer, over the extended reals.

  The layer is Y = (A · W_l + B) + H · W_r, where B repeats one bias row over all rows, optionally followed by the rectifier
  max(·, 0). Rows off, …, off + m - 1 of Y depend on those rows of A and H and on all of W_l, W_r and the bias row only. So a
  kernel that computes one block of m rows at a time — each product accumulated into zero, the bias row repeated over the
  block's rows — writes, block by block, the host's whole-array layer: at a block index j its value is Y read where the
  result block puts j. The same holds for the plain linear layer X · W + B. How a block sits in its array is left to index
  maps of which only the coordinates are assumed (rows shifted by `off`, columns kept). Addition is never reordered, so
  nothing is assumed finite.
-/
import proofs.«142014_j32839319945244_2_alg».proof.Proof.LibRowBlockProduct
import proofs.«142014_j32839319945244_2_alg».proof.Proof.LibHostSpread
import Idealize.ShloMosaic.Lib.ValueIdx
import Idealize.ShloMosaic.Lib.ValueLayout

noncomputable section

namespace Cert.Lib

open Idealize.ShloMosaic Idealize.ShloMosaic.ValueIdx

/-- One bias row repeated over the rows of a block, read at a block index `j`, is the row repeated over the rows of the whole
    array read where the block puts `j`: both read the row at `j`'s column. -/
theorem bias_row_block {m M n : Nat} (brow : (⟨2, ![1, n]⟩ : Shape).Idx → EReal)
    (eo : (⟨2, ![m, n]⟩ : Shape).Idx → (⟨2, ![M, n]⟩ : Shape).Idx)
    (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    broadcastTo ⟨2, ![m, n]⟩ brow hk j = broadcastInDim ⟨2, ![M, n]⟩ ![0, 1] hh brow (eo j) := by
  obtain ⟨a, b, rfl⟩ : ∃ (a : Fin m) (b : Fin n), j = ix2 a b := ⟨j 0, j 1, eq_ix2 j⟩
  obtain ⟨a', b', hab⟩ : ∃ (a' : Fin M) (b' : Fin n), eo (ix2 a b) = ix2 a' b' :=
    ⟨eo (ix2 a b) 0, eo (ix2 a b) 1, eq_ix2 _⟩
  have hb' : b' = b := Fin.ext (by have := heo1 (ix2 a b); rw [hab] at this; exact this)
  rw [hab, broadcastTo_1b_ab_apply, spread_1b_ab_apply, hb']

/-- x · w + (the bias row over the block) on an m-row block, the product accumulated into zero, read at a block index `j`, is
    X · w + (the bias row over the array) read where the result block puts `j`. -/
theorem linear_row_block {m M k n : Nat} {φ₁ φ₂ : FTy} (prec : Option ContractPrecision)
    (x : FVec Ideal ⟨2, ![m, k]⟩ φ₁) (w : FVec Ideal ⟨2, ![k, n]⟩ φ₂) (brow : FVec Ideal ⟨2, ![1, n]⟩ .f32)
    (X : FVec Ideal ⟨2, ![M, k]⟩ φ₁)
    (ex : (⟨2, ![m, k]⟩ : Shape).Idx → (⟨2, ![M, k]⟩ : Shape).Idx)
    (eo : (⟨2, ![m, n]⟩ : Shape).Idx → (⟨2, ![M, n]⟩ : Shape).Idx) (off : Nat)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (matmul (DotDims.plain m k n) prec x w (constant ⟨2, ![m, n]⟩ .f32 0x00000000#32))
        (broadcastTo ⟨2, ![m, n]⟩ brow hk) j
      = addf (Host.dotGeneral (DotDims.plain M k n) prec X w) (broadcastInDim ⟨2, ![M, n]⟩ ![0, 1] hh brow) (eo j) := by
  rw [addf_apply, addf_apply,
    plain_product_row_block prec x w X w ex id eo off hx (fun _ => rfl) hex0 hex1 (fun _ => rfl) (fun _ => rfl) heo0 heo1 j,
    bias_row_block brow eo heo1 hk hh j]

/-- (a · w_l + bias row) + h · w_r on an m-row block, both products accumulated into zero, read at a block index `j`, is
    (A · w_l + bias row) + H · w_r read where the result block puts `j`. -/
theorem conv_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (addf (matmul (DotDims.plain m k n) prec xa wl (constant ⟨2, ![m, n]⟩ .f32 0x00000000#32))
          (broadcastTo ⟨2, ![m, n]⟩ brow hk))
        (matmul (DotDims.plain m k n) prec xh wr (constant ⟨2, ![m, n]⟩ .f32 0x00000000#32)) j
      = addf (addf (Host.dotGeneral (DotDims.plain M k n) prec A wl) (broadcastInDim ⟨2, ![M, n]⟩ ![0, 1] hh brow))
          (Host.dotGeneral (DotDims.plain M k n) prec H wr) (eo j) := by
  rw [addf_apply, addf_apply (addf _ _) _ (eo j),
    linear_row_block prec xa wl brow A ea eo off hxa hea0 hea1 heo0 heo1 hk hh j,
    plain_product_row_block prec xh wr H wr eh id eo off hxh (fun _ => rfl) heh0 heh1 (fun _ => rfl) (fun _ => rfl) heo0 heo1 j]

/-- The rectified layer: max((a · w_l + bias row) + h · w_r, z) on an m-row block against a splat of the constant `z`, read at
    a block index `j`, is the host's max of the whole-array layer and its spread of `z`, read where the result block puts `j`. -/
theorem conv_relu_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (addf (matmul (DotDims.plain m k n) prec xa wl (constant ⟨2, ![m, n]⟩ .f32 0x00000000#32))
            (broadcastTo ⟨2, ![m, n]⟩ brow hk))
          (matmul (DotDims.plain m k n) prec xh wr (constant ⟨2, ![m, n]⟩ .f32 0x00000000#32)))
        (broadcast ⟨2, ![m, n]⟩ (Scalar.ofBits (F := Ideal) .f32 z)) j
      = maximumf (addf (addf (Host.dotGeneral (DotDims.plain M k n) prec A wl) (broadcastInDim ⟨2, ![M, n]⟩ ![0, 1] hh brow))
            (Host.dotGeneral (DotDims.plain M k n) prec H wr))
          (broadcastInDim ⟨2, ![M, n]⟩ ![] hz (constant ⟨0, ![]⟩ .f32 z)) (eo j) := by
  rw [maximumf_apply, maximumf_apply,
    conv_row_block prec xa xh wl wr brow A H ea eh eo off hxa hxh hea0 hea1 heh0 heh1 heo0 heo1 hk hh j, splat_apply]
  rfl

end Cert.Lib

end
-- ==== Proof.IssueHiddenLayer.lean ====
/-
  The issue projection fused with the first convolution towards the issues: what the launch leaves in its two result arrays.

  The launch walks 50 blocks of 4000 rows. At block t it reads rows 4000·t … 4000·t + 3999 of the aggregated user features
  A and of the raw issue features X, and all of three weight matrices and two bias rows. It writes the projection
  x · W_p + bias_p to the same rows of the first result, and, feeding that block on as the issues' own features,
  max((a · W_l + bias) + (x · W_p + bias_p) · W_r, 0) to the same rows of the second. A row of a matrix product depends on the
  same row of the left factor only, so the projected block is that block of the whole-array projection X · W_p + B_p, and
  the block of the convolution is that block of the whole-array rectified layer whose own-feature operand is the
  whole-array projection. The 50 blocks tile the 200000 rows of either result.
-/
import proofs.«142014_j32839319945244_2_alg».proof.Proof.Gen.KernelIdeal.Frame
import proofs.«142014_j32839319945244_2_alg».proof.Proof.LibConvBlock
import proofs.«142014_j32839319945244_2_alg».proof.Proof.LayerForms
import Idealize.ShloMosaic.Lib.Pipeline.Value

set_option maxRecDepth 16384

noncomputable section

namespace Cert.KernelIdeal.IssueHidden

open Cert.KernelIdeal Cert.KernelIdeal.Gen Cert.Layers
open Idealize.ShloMosaic Idealize.ShloMosaic.ValueIdx Idealize.ShloMosaic.TcCoe Idealize.SL.Sem
open Idealize.ShloMosaic.Pipeline (Dat Cfg Window)

theorem origin : (![0, 0] : Fin 2 → Nat) = fun _ => 0 := funext fun a => by fin_cases a <;> rfl

/-- The projection's bias row spreads over the 200000 rows. -/
theorem projRowSpreads : S1x128.BroadcastsInDim S200000x128 (![0, 1] : Fin 2 → Fin 2) := by decide

/-- The convolution's bias row spreads over the 200000 rows. -/
theorem rowSpreads : S1x256.BroadcastsInDim S200000x256 (![0, 1] : Fin 2 → Fin 2) := by decide

/-- The zero constant spreads over the convolution's shape. -/
theorem zeroSpreads : S_.BroadcastsInDim S200000x256 (![] : Fin 0 → Fin 2) := by decide

/-- The projected block of 4000 rows, read at a block index: the whole-array projection read where the block puts the
    index. The loaded block x is rows `off …` of X. -/
theorem projected_block_value (x1 : Vec Ideal S4000x128 .f32) (x2 : Vec Ideal S128x128 .f32) (x3 : Vec Ideal S1x128 .f32)
    (X : FVec Ideal S200000x128 .f32)
    (ex : S4000x128.Idx → S200000x128.Idx) (eo : S4000x128.Idx → S200000x128.Idx) (off : Nat)
    (h1 : ∀ y, x1 y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (j : S4000x128.Idx) :
    k0_pay1 x1 x2 x3 j = linearLayer (φ₁ := .bf16) (φ₂ := .bf16) projRowSpreads X x2 x3 (eo j) := by
  unfold k0_pay1 linearLayer
  simp only [shapeCast_self]
  refine (truncf_apply (φ := .f32) (ψ := .bf16) _ bitsLt_bf16_f32 j).trans ?_
  exact Cert.Lib.linear_row_block (m := 4000) (M := 200000) (k := 128) (n := 128) none
    (truncf .bf16 x1 bitsLt_bf16_f32) (truncf .bf16 x2 bitsLt_bf16_f32) x3 X ex eo off h1 hex0 hex1 heo0 heo1
    broadcasts_S1x128_S4000x128 projRowSpreads j

/-- The convolution's block of 4000 rows, read at a block index: the whole-array rectified layer, its own-feature operand
    the whole-array projection, read where the result block puts the index. The loaded blocks a, x are rows `off …` of
    A, X. -/
theorem block_value (x0 : Vec Ideal S4000x128 .f32) (x1 : Vec Ideal S4000x128 .f32) (x2 : Vec Ideal S128x128 .f32)
    (x3 : Vec Ideal S1x128 .f32) (x4 : Vec Ideal S128x256 .f32) (x5 : Vec Ideal S1x256 .f32) (x6 : Vec Ideal S128x256 .f32)
    (A : FVec Ideal S200000x128 .f32) (X : FVec Ideal S200000x128 .f32)
    (ea ex : S4000x128.Idx → S200000x128.Idx) (eo : S4000x256.Idx → S200000x256.Idx) (off : Nat)
    (h0 : ∀ y, x0 y = A (ea y)) (h1 : ∀ y, x1 y = X (ex y))
    (hea0 : ∀ y, (ea y 0).val = off + (y 0).val) (hea1 : ∀ y, (ea y 1).val = (y 1).val)
    (hex0 : ∀ y, (ex y 0).val = off + (y 0).val) (hex1 : ∀ y, (ex y 1).val = (y 1).val)
    (heo0 : ∀ y, (eo y 0).val = off + (y 0).val) (heo1 : ∀ y, (eo y 1).val = (y 1).val)
    (j : S4000x256.Idx) :
    k0_pay2 x0 x1 x2 x3 x4 x6 x5 j
      = convReluLayer (φ₁ := .bf16) (φ₂ := .bf16) (φ₃ := .bf16) (φ₄ := .bf16) rowSpreads zeroSpreads A
          (linearLayer (φ₁ := .bf16) (φ₂ := .bf16) projRowSpreads X x2 x3) x4 x5 x6 (eo j) := by
  unfold k0_pay2 convReluLayer convLayer
  simp only [shapeCast_self]
  refine (truncf_apply (φ := .f32) (ψ := .bf16) _ bitsLt_bf16_f32 j).trans ?_
  exact Cert.Lib.conv_relu_row_block (m := 4000) (M := 200000) (k := 128) (n := 256) none
    (truncf .bf16 x0 bitsLt_bf16_f32) (k0_pay1 x1 x2 x3) (truncf .bf16 x4 bitsLt_bf16_f32) (truncf .bf16 x6 bitsLt_bf16_f32) x5
    A (linearLayer (φ₁ := .bf16) (φ₂ := .bf16) projRowSpreads X x2 x3) ea ex eo off h0
    (fun y => projected_block_value x1 x2 x3 X ex ex off h1 hex0 hex1 hex0 hex1 y)
    hea0 hea1 hex0 hex1 heo0 heo1 broadcasts_S1x256_S4000x256 rowSpreads 0x00000000#32 zeroSpreads j

variable (V : (c : Dev nD) → (b : Ref sig .tc) → Buf (Elt Ideal) ((c : Thread nD τ).loc b))

/-- The index maps over the grid: the two row-tiled inputs and the two outputs are at block row t, the weights and the bias
    rows are whole. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The projection's weight matrix is read whole at every point. -/
theorem proj_weights_whole (c : Dev nD) (t : Fin cfg0.N) : iblk0 V c 2 t = V c main_v0 := by
  obtain ⟨-, -, -, -, -, -, -, -, e0, e1, -⟩ := block_indices t
  funext y
  show V c main_v0 (((cfg0.win 2).blk t).view.emb y) = V c main_v0 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The projection's bias row is read whole at every point. -/
theorem proj_bias_whole (c : Dev nD) (t : Fin cfg0.N) : iblk0 V c 3 t = V c main_v21 := by
  obtain ⟨-, -, -, -, -, -, -, -, -, -, e0, e1, -⟩ := block_indices t
  funext y
  show V c main_v21 (((cfg0.win 3).blk t).view.emb y) = V c main_v21 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The left weight matrix is read whole at every point. -/
theorem left_weights_whole (c : Dev nD) (t : Fin cfg0.N) : iblk0 V c 4 t = V c main_v1 := by
  obtain ⟨-, -, -, -, -, -, -, -, -, -, -, -, e0, e1, -⟩ := block_indices t
  funext y
  show V c main_v1 (((cfg0.win 4).blk t).view.emb y) = V c main_v1 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 256 + 1 * (y 1).val = (y 1).val; omega

/-- The convolution's bias row is read whole at every point. -/
theorem bias_whole (c : Dev nD) (t : Fin cfg0.N) : iblk0 V c 5 t = V c main_v22 := by
  obtain ⟨-, -, -, -, -, -, -, -, -, -, -, -, -, -, e0, e1, -⟩ := block_indices t
  funext y
  show V c main_v22 (((cfg0.win 5).blk t).view.emb y) = V c main_v22 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- The right weight matrix is read whole at every point. -/
theorem right_weights_whole (c : Dev nD) (t : Fin cfg0.N) : iblk0 V c 6 t = V c main_v2 := by
  obtain ⟨-, -, -, -, -, -, -, -, -, -, -, -, -, -, -, -, e0, e1⟩ := block_indices t
  funext y
  show V c main_v2 (((cfg0.win 6).blk t).view.emb y) = V c main_v2 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 256 + 1 * (y 1).val = (y 1).val; omega

/-- What point t writes back to the projection's array is block t of the whole-array projection. -/
theorem projected_written_block (c : Dev nD) (t : Fin cfg0.N) :
    (dat0 V c).flushed 8 t = ((cfg0.win 8).blk t).view.read (Elt Ideal)
      (linearLayer (φ₁ := .bf16) (φ₂ := .bf16) projRowSpreads (V c main_arg1) (V c main_v0) (V c main_v21)) := by
  show (cfg0.win 8).cut (grid0.coords t) ((dat0 V c).after 8 t) = _
  rw [after0_8]
  unfold out0_8
  rw [View.canon_unit_zero origin]
  simp only [View.ld_unit_zero (S := S4000x128) origin, View.ld_unit_zero (S := S128x128) origin,
    View.ld_unit_zero (S := S1x128) origin]
  rw [proj_weights_whole, proj_bias_whole]
  obtain ⟨-, -, b0, b1, -, -, o0, o1, -⟩ := block_indices t
  funext j
  show k0_pay1 (iblk0 V c 1 t) (V c main_v0) (V c main_v21) j
    = linearLayer (φ₁ := .bf16) (φ₂ := .bf16) projRowSpreads (V c main_arg1) (V c main_v0) (V c main_v21)
        (((cfg0.win 8).blk t).view.emb j)
  refine projected_block_value (iblk0 V c 1 t) (V c main_v0) (V c main_v21) (V c main_arg1)
    (fun y => ((cfg0.win 1).blk t).view.emb y) (fun y => ((cfg0.win 8).blk t).view.emb y) (t.val * 4000)
    (fun y => rfl) ?_ ?_ ?_ ?_ j
  · intro y; show win0_1.index t (0 : Fin 2) * 4000 + 1 * (y 0).val = t.val * 4000 + (y 0).val; omega
  · intro y; show win0_1.index t (1 : Fin 2) * 128 + 1 * (y 1).val = (y 1).val; omega
  · intro y; show win0_8.index t (0 : Fin 2) * 4000 + 1 * (y 0).val = t.val * 4000 + (y 0).val; omega
  · intro y; show win0_8.index t (1 : Fin 2) * 128 + 1 * (y 1).val = (y 1).val; omega

/-- What point t writes back to the convolution's array is block t of the whole-array rectified layer over the
    whole-array projection. -/
theorem written_block (c : Dev nD) (t : Fin cfg0.N) :
    (dat0 V c).flushed 7 t = ((cfg0.win 7).blk t).view.read (Elt Ideal)
      (convReluLayer (φ₁ := .bf16) (φ₂ := .bf16) (φ₃ := .bf16) (φ₄ := .bf16) rowSpreads zeroSpreads (V c main_v20)
        (linearLayer (φ₁ := .bf16) (φ₂ := .bf16) projRowSpreads (V c main_arg1) (V c main_v0) (V c main_v21))
        (V c main_v1) (V c main_v22) (V c main_v2)) := by
  show (cfg0.win 7).cut (grid0.coords t) ((dat0 V c).after 7 t) = _
  rw [after0_7]
  unfold out0_7
  rw [View.canon_unit_zero origin]
  simp only [View.ld_unit_zero (S := S4000x128) origin, View.ld_unit_zero (S := S128x128) origin,
    View.ld_unit_zero (S := S1x128) origin, View.ld_unit_zero (S := S128x256) origin,
    View.ld_unit_zero (S := S1x256) origin]
  rw [proj_weights_whole, proj_bias_whole, left_weights_whole, bias_whole, right_weights_whole]
  obtain ⟨a0, a1, b0, b1, o0, o1, -⟩ := block_indices t
  funext j
  show k0_pay2 (iblk0 V c 0 t) (iblk0 V c 1 t) (V c main_v0) (V c main_v21) (V c main_v1) (V c main_v2) (V c main_v22) j
    = convReluLayer (φ₁ := .bf16) (φ₂ := .bf16) (φ₃ := .bf16) (φ₄ := .bf16) rowSpreads zeroSpreads (V c main_v20)
        (linearLayer (φ₁ := .bf16) (φ₂ := .bf16) projRowSpreads (V c main_arg1) (V c main_v0) (V c main_v21))
        (V c main_v1) (V c main_v22) (V c main_v2) (((cfg0.win 7).blk t).view.emb j)
  refine block_value (iblk0 V c 0 t) (iblk0 V c 1 t) (V c main_v0) (V c main_v21) (V c main_v1) (V c main_v22) (V c main_v2)
    (V c main_v20) (V c main_arg1)
    (fun y => ((cfg0.win 0).blk t).view.emb y) (fun y => ((cfg0.win 1).blk t).view.emb y)
    (fun y => ((cfg0.win 7).blk t).view.emb y) (t.val * 4000) (fun y => rfl) (fun y => rfl) ?_ ?_ ?_ ?_ ?_ ?_ j
  · intro y; show win0_0.index t (0 : Fin 2) * 4000 + 1 * (y 0).val = t.val * 4000 + (y 0).val; omega
  · intro y; show win0_0.index t (1 : Fin 2) * 128 + 1 * (y 1).val = (y 1).val; omega
  · intro y; show win0_1.index t (0 : Fin 2) * 4000 + 1 * (y 0).val = t.val * 4000 + (y 0).val; omega
  · intro y; show win0_1.index t (1 : Fin 2) * 128 + 1 * (y 1).val = (y 1).val; omega
  · intro y; show win0_7.index t (0 : Fin 2) * 4000 + 1 * (y 0).val = t.val * 4000 + (y 0).val; omega
  · intro y; show win0_7.index t (1 : Fin 2) * 256 + 1 * (y 1).val = (y 1).val; omega

/-- An index of the projection's array is in point t's block iff each coordinate is in the block's range on its axis. -/
theorem projected_mem_block (t : Fin cfg0.N) (i : S200000x128.Idx) :
    i ∈ ((cfg0.win 8).blk t).view.set ↔ ∀ a : Fin 2, win0_8.index t a * S4000x128.size a ≤ (i a).val
      ∧ (i a).val < win0_8.index t a * S4000x128.size a + S4000x128.size a := by
  show i ∈ ((View.whole main_v23_1).slice (win0_8.rect t)).set ↔ _
  rw [View.set_slice_whole, Rect.mem_set_unit]
  exact Iff.rfl

/-- An index of the convolution's array is in point t's block iff each coordinate is in the block's range on its axis. -/
theorem mem_block (t : Fin cfg0.N) (i : S200000x256.Idx) :
    i ∈ ((cfg0.win 7).blk t).view.set ↔ ∀ a : Fin 2, win0_7.index t a * S4000x256.size a ≤ (i a).val
      ∧ (i a).val < win0_7.index t a * S4000x256.size a + S4000x256.size a := by
  show i ∈ ((View.whole main_v23_0).slice (win0_7.rect t)).set ↔ _
  rw [View.set_slice_whole, Rect.mem_set_unit]
  exact Iff.rfl

/-- The blocks tile the projection's array: row r is in block r / 4000. -/
theorem projected_blocks_cover (i : S200000x128.Idx) :
    ∃ t : Fin cfg0.N, (cfg0.win 8).flush t = true ∧ i ∈ ((cfg0.win 8).blk t).view.set := by
  have hi0 : (i 0).val < 200000 := (i 0).isLt
  have hi1 : (i 1).val < 128 := (i 1).isLt
  have ht : (i 0).val / 4000 < 50 := by omega
  obtain ⟨-, -, -, -, -, -, o0, o1, -⟩ := block_indices ⟨(i 0).val / 4000, ht⟩
  refine ⟨⟨(i 0).val / 4000, ht⟩, flush0_8 _, ?_⟩
  rw [projected_mem_block]
  intro a
  match a with
  | ⟨0, _⟩ =>
    show win0_8.index ⟨(i 0).val / 4000, ht⟩ (0 : Fin 2) * 4000 ≤ (i 0).val
      ∧ (i 0).val < win0_8.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win0_8.index ⟨(i 0).val / 4000, ht⟩ (1 : Fin 2) * 128 ≤ (i 1).val
      ∧ (i 1).val < win0_8.index ⟨(i 0).val / 4000, ht⟩ (1 : Fin 2) * 128 + 128
    rw [o1]; omega

/-- The blocks tile the convolution's array: row r is in block r / 4000. -/
theorem blocks_cover (i : S200000x256.Idx) :
    ∃ t : Fin cfg0.N, (cfg0.win 7).flush t = true ∧ i ∈ ((cfg0.win 7).blk t).view.set := by
  have hi0 : (i 0).val < 200000 := (i 0).isLt
  have hi1 : (i 1).val < 256 := (i 1).isLt
  have ht : (i 0).val / 4000 < 50 := by omega
  obtain ⟨-, -, -, -, o0, o1, -⟩ := block_indices ⟨(i 0).val / 4000, ht⟩
  refine ⟨⟨(i 0).val / 4000, ht⟩, flush0_7 _, ?_⟩
  rw [mem_block]
  intro a
  match a with
  | ⟨0, _⟩ =>
    show win0_7.index ⟨(i 0).val / 4000, ht⟩ (0 : Fin 2) * 4000 ≤ (i 0).val
      ∧ (i 0).val < win0_7.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win0_7.index ⟨(i 0).val / 4000, ht⟩ (1 : Fin 2) * 256 ≤ (i 1).val
      ∧ (i 1).val < win0_7.index ⟨(i 0).val / 4000, ht⟩ (1 : Fin 2) * 256 + 256
    rw [o1]; omega

/-- After the launch the projection's array is the whole-array projection of the arrays the launch found. -/
theorem projected_result (c : Dev nD) : (dat0 V c).arrAt 8 cfg0.N
    = linearLayer (φ₁ := .bf16) (φ₂ := .bf16) projRowSpreads (V c main_arg1) (V c main_v0) (V c main_v21) :=
  (dat0 V c).arrAt_eq_of_cover 8 _ (fun t _ => projected_written_block V c t) projected_blocks_cover

/-- After the launch the convolution's array is the whole-array rectified layer, over the whole-array projection, of the
    arrays the launch found. -/
theorem result (c : Dev nD) : (dat0 V c).arrAt 7 cfg0.N
    = convReluLayer (φ₁ := .bf16) (φ₂ := .bf16) (φ₃ := .bf16) (φ₄ := .bf16) rowSpreads zeroSpreads (V c main_v20)
        (linearLayer (φ₁ := .bf16) (φ₂ := .bf16) projRowSpreads (V c main_arg1) (V c main_v0) (V c main_v21))
        (V c main_v1) (V c main_v22) (V c main_v2) :=
  (dat0 V c).arrAt_eq_of_cover 7 _ (fun t _ => written_block V c t) blocks_cover

end Cert.KernelIdeal.IssueHidden

end
-- ==== Proof.UserHiddenLayer.lean ====
/-
  The first convolution towards the users, with its rectifier: what its launch leaves in the result array.

  The launch walks 25 blocks of 4000 rows. At block t it reads rows 4000·t … 4000·t + 3999 of the aggregated issue
  features A and of the users' own features H, and all of the two weight matrices and the bias row, and writes
  max((a · W_l + bias) + h · W_r, 0) to the same rows of the result. A row of a matrix product depends on the same row of
  the left factor only and the maximum is taken entry by entry, so each block written is that block of the whole-array
  layer; the 25 blocks tile the 100000 rows, so after the launch the result array is the whole-array rectified layer of
  the arrays the launch found.
-/
import proofs.«142014_j32839319945244_2_alg».proof.Proof.Gen.KernelIdeal.Frame
import proofs.«142014_j32839319945244_2_alg».proof.Proof.LibConvBlock
import proofs.«142014_j32839319945244_2_alg».proof.Proof.LayerForms
import Idealize.ShloMosaic.Lib.Pipeline.Value

set_option maxRecDepth 16384

noncomputable section

namespace Cert.KernelIdeal.UserHidden

open Cert.KernelIdeal Cert.KernelIdeal.Gen Cert.Layers
open Idealize.ShloMosaic Idealize.ShloMosaic.ValueIdx Idealize.ShloMosaic.TcCoe Idealize.SL.Sem
open Idealize.ShloMosaic.Pipeline (Dat Cfg Window)

theorem origin : (![0, 0] : Fin 2 → Nat) = fun _ => 0 := funext fun a => by fin_cases a <;> rfl

/-- One bias row spreads over the 100000 rows. -/
theorem rowSpreads : S1x256.BroadcastsInDim S100000x256 (![0, 1] : Fin 2 → Fin 2) := by decide

/-- The zero constant spreads over the result's shape. -/
theorem zeroSpreads : S_.BroadcastsInDim S100000x256 (![] : Fin 0 → Fin 2) := by decide

/-- The block of 4000 rows at point t, computed from the loaded blocks, read at a block index: the whole-array rectified
    layer read where the result block puts the index. The loaded blocks a, h are rows `off …` of A, H. -/
theorem block_value (x0 : Vec Ideal S4000x128 .f32) (x1 : Vec Ideal S4000x128 .bf16) (x2 : Vec Ideal S128x256 .f32)
    (x3 : Vec Ideal S1x256 .f32) (x4 : Vec Ideal S128x256 .f32)
    (A : FVec Ideal S100000x128 .f32) (H : FVec Ideal S100000x128 .bf16)
    (ea eh : S4000x128.Idx → S100000x128.Idx) (eo : S4000x256.Idx → S100000x256.Idx) (off : Nat)
    (h0 : ∀ y, x0 y = A (ea y)) (h1 : ∀ y, x1 y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (j : S4000x256.Idx) :
    k1_pay1 x0 x1 x2 x4 x3 j
      = convReluLayer (φ₂ := .bf16) (φ₄ := .bf16) rowSpreads zeroSpreads A H x2 x3 x4 (eo j) := by
  unfold k1_pay1 convReluLayer convLayer
  simp only [shapeCast_self]
  refine (truncf_apply (φ := .f32) (ψ := .bf16) _ bitsLt_bf16_f32 j).trans ?_
  exact Cert.Lib.conv_relu_row_block (m := 4000) (M := 100000) (k := 128) (n := 256) none
    (truncf .bf16 x0 bitsLt_bf16_f32) x1 (truncf .bf16 x2 bitsLt_bf16_f32) (truncf .bf16 x4 bitsLt_bf16_f32) x3 A H
    ea eh eo off h0 h1 hea0 hea1 heh0 heh1 heo0 heo1 broadcasts_S1x256_S4000x256 rowSpreads 0x00000000#32 zeroSpreads j

variable (V : (c : Dev nD) → (b : Ref sig .tc) → Buf (Elt Ideal) ((c : Thread nD τ).loc b))

/-- The index maps over the grid: the two row-tiled inputs and the output are at block row t, the weights and the bias
    row are whole. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The left weight matrix is read whole at every point. -/
theorem left_weights_whole (c : Dev nD) (t : Fin cfg1.N) : iblk1 V c 2 t = V c main_v3 := by
  obtain ⟨-, -, -, -, -, -, e0, e1, -⟩ := block_indices t
  funext y
  show V c main_v3 (((cfg1.win 2).blk t).view.emb y) = V c main_v3 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 256 + 1 * (y 1).val = (y 1).val; omega

/-- The bias row is read whole at every point. -/
theorem bias_whole (c : Dev nD) (t : Fin cfg1.N) : iblk1 V c 3 t = V c main_v35 := by
  obtain ⟨-, -, -, -, -, -, -, -, e0, e1, -⟩ := block_indices t
  funext y
  show V c main_v35 (((cfg1.win 3).blk t).view.emb y) = V c main_v35 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- The right weight matrix is read whole at every point. -/
theorem right_weights_whole (c : Dev nD) (t : Fin cfg1.N) : iblk1 V c 4 t = V c main_v4 := by
  obtain ⟨-, -, -, -, -, -, -, -, -, -, e0, e1⟩ := block_indices t
  funext y
  show V c main_v4 (((cfg1.win 4).blk t).view.emb y) = V c main_v4 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 256 + 1 * (y 1).val = (y 1).val; omega

/-- What point t writes back is block t of the whole-array rectified layer of the arrays the launch found. -/
theorem written_block (c : Dev nD) (t : Fin cfg1.N) :
    (dat1 V c).flushed 5 t = ((cfg1.win 5).blk t).view.read (Elt Ideal)
      (convReluLayer (φ₁ := .f32) (φ₂ := .bf16) (φ₃ := .bf16) (φ₄ := .bf16) rowSpreads zeroSpreads
        (V c main_v34) (V c main_v9) (V c main_v3) (V c main_v35) (V c main_v4)) := by
  show (cfg1.win 5).cut (grid1.coords t) ((dat1 V c).after 5 t) = _
  rw [after1_5]
  unfold out1_5
  rw [View.canon_unit_zero origin]
  simp only [View.ld_unit_zero (S := S4000x128) origin, View.ld_unit_zero (S := S128x256) origin,
    View.ld_unit_zero (S := S1x256) origin]
  rw [left_weights_whole, bias_whole, right_weights_whole]
  obtain ⟨a0, a1, b0, b1, o0, o1, -⟩ := block_indices t
  funext j
  show k1_pay1 (iblk1 V c 0 t) (iblk1 V c 1 t) (V c main_v3) (V c main_v4) (V c main_v35) j
    = convReluLayer rowSpreads zeroSpreads (V c main_v34) (V c main_v9) (V c main_v3) (V c main_v35) (V c main_v4)
        (((cfg1.win 5).blk t).view.emb j)
  refine block_value (iblk1 V c 0 t) (iblk1 V c 1 t) (V c main_v3) (V c main_v35) (V c main_v4) (V c main_v34) (V c main_v9)
    (fun y => ((cfg1.win 0).blk t).view.emb y) (fun y => ((cfg1.win 1).blk t).view.emb y)
    (fun y => ((cfg1.win 5).blk t).view.emb y) (t.val * 4000) (fun y => rfl) (fun y => rfl) ?_ ?_ ?_ ?_ ?_ ?_ j
  · intro y; show win1_0.index t (0 : Fin 2) * 4000 + 1 * (y 0).val = t.val * 4000 + (y 0).val; omega
  · intro y; show win1_0.index t (1 : Fin 2) * 128 + 1 * (y 1).val = (y 1).val; omega
  · intro y; show win1_1.index t (0 : Fin 2) * 4000 + 1 * (y 0).val = t.val * 4000 + (y 0).val; omega
  · intro y; show win1_1.index t (1 : Fin 2) * 128 + 1 * (y 1).val = (y 1).val; omega
  · intro y; show win1_5.index t (0 : Fin 2) * 4000 + 1 * (y 0).val = t.val * 4000 + (y 0).val; omega
  · intro y; show win1_5.index t (1 : Fin 2) * 256 + 1 * (y 1).val = (y 1).val; omega

/-- An index of the result array is in point t's block iff each coordinate is in the block's range on its axis. -/
theorem mem_block (t : Fin cfg1.N) (i : S100000x256.Idx) :
    i ∈ ((cfg1.win 5).blk t).view.set ↔ ∀ a : Fin 2, win1_5.index t a * S4000x256.size a ≤ (i a).val
      ∧ (i a).val < win1_5.index t a * S4000x256.size a + S4000x256.size a := by
  show i ∈ ((View.whole main_v36).slice (win1_5.rect t)).set ↔ _
  rw [View.set_slice_whole, Rect.mem_set_unit]
  exact Iff.rfl

/-- The blocks tile the result: row r is in block r / 4000. -/
theorem blocks_cover (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have ht : (i 0).val / 4000 < 25 := by omega
  obtain ⟨-, -, -, -, o0, o1, -⟩ := block_indices ⟨(i 0).val / 4000, ht⟩
  refine ⟨⟨(i 0).val / 4000, ht⟩, flush1_5 _, ?_⟩
  rw [mem_block]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win1_5.index ⟨(i 0).val / 4000, ht⟩ (1 : Fin 2) * 256 ≤ (i 1).val
      ∧ (i 1).val < win1_5.index ⟨(i 0).val / 4000, ht⟩ (1 : Fin 2) * 256 + 256
    rw [o1]; omega

/-- After the launch the result array is the whole-array rectified layer of the arrays the launch found. -/
theorem result (c : Dev nD) : (dat1 V c).arrAt 5 cfg1.N
    = convReluLayer (φ₁ := .f32) (φ₂ := .bf16) (φ₃ := .bf16) (φ₄ := .bf16) rowSpreads zeroSpreads
        (V c main_v34) (V c main_v9) (V c main_v3) (V c main_v35) (V c main_v4) :=
  (dat1 V c).arrAt_eq_of_cover 5 _ (fun t _ => written_block V c t) blocks_cover

end Cert.KernelIdeal.UserHidden

end
-- ==== Proof.IssueOutLayer.lean ====
/-
  The second convolution towards the issues: what its launch leaves in the result array.

  The launch walks 50 blocks of 4000 rows. At block t it reads rows 4000·t … 4000·t + 3999 of the aggregated
  neighbour features A and of the node's own hidden features H, and all of the two weight matrices and the bias row,
  and writes (a · W_l + bias) + h · W_r to the same rows of the result. A row of a matrix product depends on the same row
  of the left factor only, so each block written is that block of the whole-array layer (A · W_l + B) + H · W_r; the
  50 blocks tile the 200000 rows, so after the launch the result array is the whole-array layer of the arrays the launch
  found.
-/
import proofs.«142014_j32839319945244_2_alg».proof.Proof.Gen.KernelIdeal.Frame
import proofs.«142014_j32839319945244_2_alg».proof.Proof.LibConvBlock
import proofs.«142014_j32839319945244_2_alg».proof.Proof.LayerForms
import Idealize.ShloMosaic.Lib.Pipeline.Value

set_option maxRecDepth 16384

noncomputable section

namespace Cert.KernelIdeal.IssueOut

open Cert.KernelIdeal Cert.KernelIdeal.Gen Cert.Layers
open Idealize.ShloMosaic Idealize.ShloMosaic.ValueIdx Idealize.ShloMosaic.TcCoe Idealize.SL.Sem
open Idealize.ShloMosaic.Pipeline (Dat Cfg Window)

theorem origin : (![0, 0] : Fin 2 → Nat) = fun _ => 0 := funext fun a => by fin_cases a <;> rfl

/-- One bias row spreads over the 200000 rows. -/
theorem rowSpreads : S1x128.BroadcastsInDim S200000x128 (![0, 1] : Fin 2 → Fin 2) := by decide

/-- The block of 4000 rows at point t, computed from the loaded blocks, read at a block index: the whole-array layer read
    where the result block puts the index. The loaded blocks a, h are rows `off …` of A, H. -/
theorem block_value (x0 : Vec Ideal S4000x256 .f32) (x1 : Vec Ideal S4000x256 .bf16) (x2 : Vec Ideal S256x128 .f32)
    (x3 : Vec Ideal S1x128 .f32) (x4 : Vec Ideal S256x128 .f32)
    (A : FVec Ideal S200000x256 .f32) (H : FVec Ideal S200000x256 .bf16)
    (ea eh : S4000x256.Idx → S200000x256.Idx) (eo : S4000x128.Idx → S200000x128.Idx) (off : Nat)
    (h0 : ∀ y, x0 y = A (ea y)) (h1 : ∀ y, x1 y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (j : S4000x128.Idx) :
    k2_pay1 x0 x1 x2 x4 x3 j = convLayer (φ₂ := .bf16) (φ₄ := .bf16) rowSpreads A H x2 x3 x4 (eo j) := by
  unfold k2_pay1 convLayer
  simp only [shapeCast_self]
  exact Cert.Lib.conv_row_block (m := 4000) (M := 200000) (k := 256) (n := 128) none (truncf .bf16 x0 bitsLt_bf16_f32) x1
    (truncf .bf16 x2 bitsLt_bf16_f32) (truncf .bf16 x4 bitsLt_bf16_f32) x3 A H ea eh eo off h0 h1
    hea0 hea1 heh0 heh1 heo0 heo1 broadcasts_S1x128_S4000x128 rowSpreads j

variable (V : (c : Dev nD) → (b : Ref sig .tc) → Buf (Elt Ideal) ((c : Thread nD τ).loc b))

/-- The index maps over the grid: the two row-tiled inputs and the output are at block row t, the weights and the bias
    row are whole. -/
theorem block_indices : ∀ t : Fin cfg2.N, win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The left weight matrix is read whole at every point. -/
theorem left_weights_whole (c : Dev nD) (t : Fin cfg2.N) : iblk2 V c 2 t = V c main_v5 := by
  obtain ⟨-, -, -, -, -, -, e0, e1, -⟩ := block_indices t
  funext y
  show V c main_v5 (((cfg2.win 2).blk t).view.emb y) = V c main_v5 y
  refine congrArg _ (funext fun a => Fin.ext ?_)
  match a with
  | ⟨0, _⟩ => show win2_2.index t (0 : Fin 2) * 256 + 1 * (y 0).val = (y 0).val; omega
  | ⟨1, _⟩ => show win2_2.index t (1 : Fin 2) * 128 + 1 * (y 1).val = (y 1).val; omega

/-- The bias row is read whole at every point. -/
theorem bias_whole (c : Dev nD) (t : Fin cfg2.N) : iblk2 V c 3 t = V c main_v48 := by
  obtain ⟨-, -, -, -, -, -, -, -, e0, e1, -⟩ := block_indices t
  funext y
  show V c main_v48 (((cfg2.win 3).blk t).view.emb y) = V c main_v48 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The right weight matrix is read whole at every point. -/
theorem right_weights_whole (c : Dev nD) (t : Fin cfg2.N) : iblk2 V c 4 t = V c main_v6 := by
  obtain ⟨-, -, -, -, -, -, -, -, -, -, e0, e1⟩ := block_indices t
  funext y
  show V c main_v6 (((cfg2.win 4).blk t).view.emb y) = V c main_v6 y
  refine congrArg _ (funext fun a => Fin.ext ?_)
  match a with
  | ⟨0, _⟩ => show win2_4.index t (0 : Fin 2) * 256 + 1 * (y 0).val = (y 0).val; omega
  | ⟨1, _⟩ => show win2_4.index t (1 : Fin 2) * 128 + 1 * (y 1).val = (y 1).val; omega

/-- What point t writes back is block t of the whole-array layer of the arrays the launch found. -/
theorem written_block (c : Dev nD) (t : Fin cfg2.N) :
    (dat2 V c).flushed 5 t = ((cfg2.win 5).blk t).view.read (Elt Ideal)
      (convLayer (φ₁ := .f32) (φ₂ := .bf16) (φ₃ := .bf16) (φ₄ := .bf16) rowSpreads
        (V c main_v47) (V c main_v23_0) (V c main_v5) (V c main_v48) (V c main_v6)) := by
  show (cfg2.win 5).cut (grid2.coords t) ((dat2 V c).after 5 t) = _
  rw [after2_5]
  unfold out2_5
  rw [View.canon_unit_zero origin]
  simp only [View.ld_unit_zero (S := S4000x256) origin, View.ld_unit_zero (S := S256x128) origin,
    View.ld_unit_zero (S := S1x128) origin]
  rw [left_weights_whole, bias_whole, right_weights_whole]
  obtain ⟨a0, a1, b0, b1, o0, o1, -⟩ := block_indices t
  funext j
  show k2_pay1 (iblk2 V c 0 t) (iblk2 V c 1 t) (V c main_v5) (V c main_v6) (V c main_v48) j
    = convLayer rowSpreads (V c main_v47) (V c main_v23_0) (V c main_v5) (V c main_v48) (V c main_v6) (((cfg2.win 5).blk t).view.emb j)
  refine block_value (iblk2 V c 0 t) (iblk2 V c 1 t) (V c main_v5) (V c main_v48) (V c main_v6) (V c main_v47) (V c main_v23_0)
    (fun y => ((cfg2.win 0).blk t).view.emb y) (fun y => ((cfg2.win 1).blk t).view.emb y)
    (fun y => ((cfg2.win 5).blk t).view.emb y) (t.val * 4000) (fun y => rfl) (fun y => rfl) ?_ ?_ ?_ ?_ ?_ ?_ j
  · intro y; show win2_0.index t (0 : Fin 2) * 4000 + 1 * (y 0).val = t.val * 4000 + (y 0).val; omega
  · intro y; show win2_0.index t (1 : Fin 2) * 256 + 1 * (y 1).val = (y 1).val; omega
  · intro y; show win2_1.index t (0 : Fin 2) * 4000 + 1 * (y 0).val = t.val * 4000 + (y 0).val; omega
  · intro y; show win2_1.index t (1 : Fin 2) * 256 + 1 * (y 1).val = (y 1).val; omega
  · intro y; show win2_5.index t (0 : Fin 2) * 4000 + 1 * (y 0).val = t.val * 4000 + (y 0).val; omega
  · intro y; show win2_5.index t (1 : Fin 2) * 128 + 1 * (y 1).val = (y 1).val; omega

/-- An index of the result array is in point t's block iff each coordinate is in the block's range on its axis. -/
theorem mem_block (t : Fin cfg2.N) (i : S200000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v49).slice (win2_5.rect t)).set ↔ _
  rw [View.set_slice_whole, Rect.mem_set_unit]
  exact Iff.rfl

/-- The blocks tile the result: row r is in block r / 4000. -/
theorem blocks_cover (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  have ht : (i 0).val / 4000 < 50 := by omega
  obtain ⟨-, -, -, -, o0, o1, -⟩ := block_indices ⟨(i 0).val / 4000, ht⟩
  refine ⟨⟨(i 0).val / 4000, ht⟩, flush2_5 _, ?_⟩
  rw [mem_block]
  intro a
  match a with
  | ⟨0, _⟩ =>
    show win2_5.index ⟨(i 0).val / 4000, ht⟩ (0 : Fin 2) * 4000 ≤ (i 0).val
      ∧ (i 0).val < win2_5.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win2_5.index ⟨(i 0).val / 4000, ht⟩ (1 : Fin 2) * 128 ≤ (i 1).val
      ∧ (i 1).val < win2_5.index ⟨(i 0).val / 4000, ht⟩ (1 : Fin 2) * 128 + 128
    rw [o1]; omega

/-- After the launch the result array is the whole-array layer of the arrays the launch found. -/
theorem result (c : Dev nD) : (dat2 V c).arrAt 5 cfg2.N
    = convLayer (φ₁ := .f32) (φ₂ := .bf16) (φ₃ := .bf16) (φ₄ := .bf16) rowSpreads
        (V c main_v47) (V c main_v23_0) (V c main_v5) (V c main_v48) (V c main_v6) :=
  (dat2 V c).arrAt_eq_of_cover 5 _ (fun t _ => written_block V c t) blocks_cover

end Cert.KernelIdeal.IssueOut

end
-- ==== Proof.UserOutLayer.lean ====
/-
  The second convolution towards the users: what its launch leaves in the result array.

  The launch walks 25 blocks of 4000 rows. At block t it reads rows 4000·t … 4000·t + 3999 of the aggregated
  neighbour features A and of the node's own hidden features H, and all of the two weight matrices and the bias row,
  and writes (a · W_l + bias) + h · W_r to the same rows of the result. A row of a matrix product depends on the same row
  of the left factor only, so each block written is that block of the whole-array layer (A · W_l + B) + H · W_r; the
  25 blocks tile the 100000 rows, so after the launch the result array is the whole-array layer of the arrays the launch
  found.
-/
import proofs.«142014_j32839319945244_2_alg».proof.Proof.Gen.KernelIdeal.Frame
import proofs.«142014_j32839319945244_2_alg».proof.Proof.LibConvBlock
import proofs.«142014_j32839319945244_2_alg».proof.Proof.LayerForms
import Idealize.ShloMosaic.Lib.Pipeline.Value

set_option maxRecDepth 16384

noncomputable section

namespace Cert.KernelIdeal.UserOut

open Cert.KernelIdeal Cert.KernelIdeal.Gen Cert.Layers
open Idealize.ShloMosaic Idealize.ShloMosaic.ValueIdx Idealize.ShloMosaic.TcCoe Idealize.SL.Sem
open Idealize.ShloMosaic.Pipeline (Dat Cfg Window)

theorem origin : (![0, 0] : Fin 2 → Nat) = fun _ => 0 := funext fun a => by fin_cases a <;> rfl

/-- One bias row spreads over the 100000 rows. -/
theorem rowSpreads : S1x128.BroadcastsInDim S100000x128 (![0, 1] : Fin 2 → Fin 2) := by decide

/-- The block of 4000 rows at point t, computed from the loaded blocks, read at a block index: the whole-array layer read
    where the result block puts the index. The loaded blocks a, h are rows `off …` of A, H. -/
theorem block_value (x0 : Vec Ideal S4000x256 .f32) (x1 : Vec Ideal S4000x256 .bf16) (x2 : Vec Ideal S256x128 .f32)
    (x3 : Vec Ideal S1x128 .f32) (x4 : Vec Ideal S256x128 .f32)
    (A : FVec Ideal S100000x256 .f32) (H : FVec Ideal S100000x256 .bf16)
    (ea eh : S4000x256.Idx → S100000x256.Idx) (eo : S4000x128.Idx → S100000x128.Idx) (off : Nat)
    (h0 : ∀ y, x0 y = A (ea y)) (h1 : ∀ y, x1 y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (j : S4000x128.Idx) :
    k3_pay1 x0 x1 x2 x4 x3 j = convLayer (φ₂ := .bf16) (φ₄ := .bf16) rowSpreads A H x2 x3 x4 (eo j) := by
  unfold k3_pay1 convLayer
  simp only [shapeCast_self]
  exact Cert.Lib.conv_row_block (m := 4000) (M := 100000) (k := 256) (n := 128) none (truncf .bf16 x0 bitsLt_bf16_f32) x1
    (truncf .bf16 x2 bitsLt_bf16_f32) (truncf .bf16 x4 bitsLt_bf16_f32) x3 A H ea eh eo off h0 h1
    hea0 hea1 heh0 heh1 heo0 heo1 broadcasts_S1x128_S4000x128 rowSpreads j

variable (V : (c : Dev nD) → (b : Ref sig .tc) → Buf (Elt Ideal) ((c : Thread nD τ).loc b))

/-- The index maps over the grid: the two row-tiled inputs and the output are at block row t, the weights and the bias
    row are whole. -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_5.index t (0 : Fin 2) = t.val ∧ win3_5.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The left weight matrix is read whole at every point. -/
theorem left_weights_whole (c : Dev nD) (t : Fin cfg3.N) : iblk3 V c 2 t = V c main_v7 := by
  obtain ⟨-, -, -, -, -, -, e0, e1, -⟩ := block_indices t
  funext y
  show V c main_v7 (((cfg3.win 2).blk t).view.emb y) = V c main_v7 y
  refine congrArg _ (funext fun a => Fin.ext ?_)
  match a with
  | ⟨0, _⟩ => show win3_2.index t (0 : Fin 2) * 256 + 1 * (y 0).val = (y 0).val; omega
  | ⟨1, _⟩ => show win3_2.index t (1 : Fin 2) * 128 + 1 * (y 1).val = (y 1).val; omega

/-- The bias row is read whole at every point. -/
theorem bias_whole (c : Dev nD) (t : Fin cfg3.N) : iblk3 V c 3 t = V c main_v61 := by
  obtain ⟨-, -, -, -, -, -, -, -, e0, e1, -⟩ := block_indices t
  funext y
  show V c main_v61 (((cfg3.win 3).blk t).view.emb y) = V c main_v61 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The right weight matrix is read whole at every point. -/
theorem right_weights_whole (c : Dev nD) (t : Fin cfg3.N) : iblk3 V c 4 t = V c main_v8 := by
  obtain ⟨-, -, -, -, -, -, -, -, -, -, e0, e1⟩ := block_indices t
  funext y
  show V c main_v8 (((cfg3.win 4).blk t).view.emb y) = V c main_v8 y
  refine congrArg _ (funext fun a => Fin.ext ?_)
  match a with
  | ⟨0, _⟩ => show win3_4.index t (0 : Fin 2) * 256 + 1 * (y 0).val = (y 0).val; omega
  | ⟨1, _⟩ => show win3_4.index t (1 : Fin 2) * 128 + 1 * (y 1).val = (y 1).val; omega

/-- What point t writes back is block t of the whole-array layer of the arrays the launch found. -/
theorem written_block (c : Dev nD) (t : Fin cfg3.N) :
    (dat3 V c).flushed 5 t = ((cfg3.win 5).blk t).view.read (Elt Ideal)
      (convLayer (φ₁ := .f32) (φ₂ := .bf16) (φ₃ := .bf16) (φ₄ := .bf16) rowSpreads
        (V c main_v60) (V c main_v36) (V c main_v7) (V c main_v61) (V c main_v8)) := by
  show (cfg3.win 5).cut (grid3.coords t) ((dat3 V c).after 5 t) = _
  rw [after3_5]
  unfold out3_5
  rw [View.canon_unit_zero origin]
  simp only [View.ld_unit_zero (S := S4000x256) origin, View.ld_unit_zero (S := S256x128) origin,
    View.ld_unit_zero (S := S1x128) origin]
  rw [left_weights_whole, bias_whole, right_weights_whole]
  obtain ⟨a0, a1, b0, b1, o0, o1, -⟩ := block_indices t
  funext j
  show k3_pay1 (iblk3 V c 0 t) (iblk3 V c 1 t) (V c main_v7) (V c main_v8) (V c main_v61) j
    = convLayer rowSpreads (V c main_v60) (V c main_v36) (V c main_v7) (V c main_v61) (V c main_v8) (((cfg3.win 5).blk t).view.emb j)
  refine block_value (iblk3 V c 0 t) (iblk3 V c 1 t) (V c main_v7) (V c main_v61) (V c main_v8) (V c main_v60) (V c main_v36)
    (fun y => ((cfg3.win 0).blk t).view.emb y) (fun y => ((cfg3.win 1).blk t).view.emb y)
    (fun y => ((cfg3.win 5).blk t).view.emb y) (t.val * 4000) (fun y => rfl) (fun y => rfl) ?_ ?_ ?_ ?_ ?_ ?_ j
  · intro y; show win3_0.index t (0 : Fin 2) * 4000 + 1 * (y 0).val = t.val * 4000 + (y 0).val; omega
  · intro y; show win3_0.index t (1 : Fin 2) * 256 + 1 * (y 1).val = (y 1).val; omega
  · intro y; show win3_1.index t (0 : Fin 2) * 4000 + 1 * (y 0).val = t.val * 4000 + (y 0).val; omega
  · intro y; show win3_1.index t (1 : Fin 2) * 256 + 1 * (y 1).val = (y 1).val; omega
  · intro y; show win3_5.index t (0 : Fin 2) * 4000 + 1 * (y 0).val = t.val * 4000 + (y 0).val; omega
  · intro y; show win3_5.index t (1 : Fin 2) * 128 + 1 * (y 1).val = (y 1).val; omega

/-- An index of the result array is in point t's block iff each coordinate is in the block's range on its axis. -/
theorem mem_block (t : Fin cfg3.N) (i : S100000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v62).slice (win3_5.rect t)).set ↔ _
  rw [View.set_slice_whole, Rect.mem_set_unit]
  exact Iff.rfl

/-- The blocks tile the result: row r is in block r / 4000. -/
theorem blocks_cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 4000 < 25 := by omega
  obtain ⟨-, -, -, -, o0, o1, -⟩ := block_indices ⟨(i 0).val / 4000, ht⟩
  refine ⟨⟨(i 0).val / 4000, ht⟩, flush3_5 _, ?_⟩
  rw [mem_block]
  intro a
  match a with
  | ⟨0, _⟩ =>
    show win3_5.index ⟨(i 0).val / 4000, ht⟩ (0 : Fin 2) * 4000 ≤ (i 0).val
      ∧ (i 0).val < win3_5.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win3_5.index ⟨(i 0).val / 4000, ht⟩ (1 : Fin 2) * 128 ≤ (i 1).val
      ∧ (i 1).val < win3_5.index ⟨(i 0).val / 4000, ht⟩ (1 : Fin 2) * 128 + 128
    rw [o1]; omega

/-- After the launch the result array is the whole-array layer of the arrays the launch found. -/
theorem result (c : Dev nD) : (dat3 V c).arrAt 5 cfg3.N
    = convLayer (φ₁ := .f32) (φ₂ := .bf16) (φ₃ := .bf16) (φ₄ := .bf16) rowSpreads
        (V c main_v60) (V c main_v36) (V c main_v7) (V c main_v61) (V c main_v8) :=
  (dat3 V c).arrAt_eq_of_cover 5 _ (fun t _ => written_block V c t) blocks_cover

end Cert.KernelIdeal.UserOut

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.KernelBoundaries.lean ====
/-
  The idealized kernel's program, boundary by boundary: it computes the network.

  The program alternates stretches of host operations with four launches. A host stretch transposes weights, rounds and
  widens features (the identity on the extended reals), wraps and gathers through the edge indices, scatters with
  accumulation into zeros, and recasts a bias vector as one row (the same array as the reference's spread of the vector along
  dimension 1). A launch leaves its result array at the whole-array layer of the arrays it found. Reading the fold of the
  program's memory from the launch memory forward, each buffer of interest holds at each boundary the corresponding stage of
  the network of Net.lean at the argument arrays: a buffer no operation of a stretch writes, and no window of a launch
  writes back, keeps its contents; a stretch's or a launch's own result is the next stage of the network of the stages
  before it. At the last boundary the two result buffers hold the network's two outputs.
-/
import proofs.«142014_j32839319945244_2_alg».proof.Proof.Gen.KernelIdeal.Frame
import proofs.«142014_j32839319945244_2_alg».proof.Proof.Gen.ReferenceIdeal
import proofs.«142014_j32839319945244_2_alg».proof.Proof.Net
import proofs.«142014_j32839319945244_2_alg».proof.Proof.IssueHiddenLayer
import proofs.«142014_j32839319945244_2_alg».proof.Proof.UserHiddenLayer
import proofs.«142014_j32839319945244_2_alg».proof.Proof.IssueOutLayer
import proofs.«142014_j32839319945244_2_alg».proof.Proof.UserOutLayer
import proofs.«142014_j32839319945244_2_alg».proof.Proof.LibRowOfVector
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The argument arrays of the launch memory, on one core. -/
def params (c : Dev nD) : Cert.Net.Params where
  xUser := m ((c : Thread nD τ).loc main_arg0)
  xIssue := m ((c : Thread nD τ).loc main_arg1)
  wProj := m ((c : Thread nD τ).loc main_arg2)
  bProj := m ((c : Thread nD τ).loc main_arg3)
  w1IssueRel := m ((c : Thread nD τ).loc main_arg4)
  b1Issue := m ((c : Thread nD τ).loc main_arg5)
  w1IssueRoot := m ((c : Thread nD τ).loc main_arg6)
  w1UserRel := m ((c : Thread nD τ).loc main_arg7)
  b1User := m ((c : Thread nD τ).loc main_arg8)
  w1UserRoot := m ((c : Thread nD τ).loc main_arg9)
  w2IssueRel := m ((c : Thread nD τ).loc main_arg10)
  b2Issue := m ((c : Thread nD τ).loc main_arg11)
  w2IssueRoot := m ((c : Thread nD τ).loc main_arg12)
  w2UserRel := m ((c : Thread nD τ).loc main_arg13)
  b2User := m ((c : Thread nD τ).loc main_arg14)
  w2UserRoot := m ((c : Thread nD τ).loc main_arg15)
  src := m ((c : Thread nD τ).loc main_arg16)
  dst := m ((c : Thread nD τ).loc main_arg17)

/-- A buffer no operation of a host stretch writes holds after the stretch what it held before. -/
macro "unwritten " ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## After the first host stretch: the transposed weights, the rounded user features, the first aggregate towards the
issues, and the bias rows -/

theorem at1_arg1 (c : Dev nD) : W1 m ρ c (Proc.devRef .tc main_arg1)
    = (params m c).xIssue :=
  (show W1 m ρ c (Proc.devRef .tc main_arg1) = W0 m ρ c (Proc.devRef .tc main_arg1) by unwritten hostOps0).trans rfl

theorem at1_arg16 (c : Dev nD) : W1 m ρ c (Proc.devRef .tc main_arg16)
    = (params m c).src :=
  (show W1 m ρ c (Proc.devRef .tc main_arg16) = W0 m ρ c (Proc.devRef .tc main_arg16) by unwritten hostOps0).trans rfl

theorem at1_arg17 (c : Dev nD) : W1 m ρ c (Proc.devRef .tc main_arg17)
    = (params m c).dst :=
  (show W1 m ρ c (Proc.devRef .tc main_arg17) = W0 m ρ c (Proc.devRef .tc main_arg17) by unwritten hostOps0).trans rfl

theorem at1_arg8 (c : Dev nD) : W1 m ρ c (Proc.devRef .tc main_arg8)
    = (params m c).b1User :=
  (show W1 m ρ c (Proc.devRef .tc main_arg8) = W0 m ρ c (Proc.devRef .tc main_arg8) by unwritten hostOps0).trans rfl

theorem at1_arg11 (c : Dev nD) : W1 m ρ c (Proc.devRef .tc main_arg11)
    = (params m c).b2Issue :=
  (show W1 m ρ c (Proc.devRef .tc main_arg11) = W0 m ρ c (Proc.devRef .tc main_arg11) by unwritten hostOps0).trans rfl

theorem at1_arg14 (c : Dev nD) : W1 m ρ c (Proc.devRef .tc main_arg14)
    = (params m c).b2User :=
  (show W1 m ρ c (Proc.devRef .tc main_arg14) = W0 m ρ c (Proc.devRef .tc main_arg14) by unwritten hostOps0).trans rfl

set_option maxHeartbeats 4000000 in
theorem at1_v0 (c : Dev nD) : W1 m ρ c (Proc.devRef .tc main_v0)
    = transpose Cert.ReferenceIdeal.S128x128 [1, 0] (params m c).wProj Cert.Net.sqT := by
  show StableHlo.after hostOps0 _ (Proc.devRef .tc main_v0) = _
  after_results_simp
  rfl

set_option maxHeartbeats 4000000 in
theorem at1_v1 (c : Dev nD) : W1 m ρ c (Proc.devRef .tc main_v1)
    = transpose Cert.ReferenceIdeal.S128x256 [1, 0] (params m c).w1IssueRel Cert.Net.hidT := by
  show StableHlo.after hostOps0 _ (Proc.devRef .tc main_v1) = _
  after_results_simp
  rfl

set_option maxHeartbeats 4000000 in
theorem at1_v2 (c : Dev nD) : W1 m ρ c (Proc.devRef .tc main_v2)
    = transpose Cert.ReferenceIdeal.S128x256 [1, 0] (params m c).w1IssueRoot Cert.Net.hidT := by
  show StableHlo.after hostOps0 _ (Proc.devRef .tc main_v2) = _
  after_results_simp
  rfl

set_option maxHeartbeats 4000000 in
theorem at1_v3 (c : Dev nD) : W1 m ρ c (Proc.devRef .tc main_v3)
    = transpose Cert.ReferenceIdeal.S128x256 [1, 0] (params m c).w1UserRel Cert.Net.hidT := by
  show StableHlo.after hostOps0 _ (Proc.devRef .tc main_v3) = _
  after_results_simp
  rfl

set_option maxHeartbeats 4000000 in
theorem at1_v4 (c : Dev nD) : W1 m ρ c (Proc.devRef .tc main_v4)
    = transpose Cert.ReferenceIdeal.S128x256 [1, 0] (params m c).w1UserRoot Cert.Net.hidT := by
  show StableHlo.after hostOps0 _ (Proc.devRef .tc main_v4) = _
  after_results_simp
  rfl

set_option maxHeartbeats 4000000 in
theorem at1_v5 (c : Dev nD) : W1 m ρ c (Proc.devRef .tc main_v5)
    = transpose Cert.ReferenceIdeal.S256x128 [1, 0] (params m c).w2IssueRel Cert.Net.outT := by
  show StableHlo.after hostOps0 _ (Proc.devRef .tc main_v5) = _
  after_results_simp
  rfl

set_option maxHeartbeats 4000000 in
theorem at1_v6 (c : Dev nD) : W1 m ρ c (Proc.devRef .tc main_v6)
    = transpose Cert.ReferenceIdeal.S256x128 [1, 0] (params m c).w2IssueRoot Cert.Net.outT := by
  show StableHlo.after hostOps0 _ (Proc.devRef .tc main_v6) = _
  after_results_simp
  rfl

set_option maxHeartbeats 4000000 in
theorem at1_v7 (c : Dev nD) : W1 m ρ c (Proc.devRef .tc main_v7)
    = transpose Cert.ReferenceIdeal.S256x128 [1, 0] (params m c).w2UserRel Cert.Net.outT := by
  show StableHlo.after hostOps0 _ (Proc.devRef .tc main_v7) = _
  after_results_simp
  rfl

set_option maxHeartbeats 4000000 in
theorem at1_v8 (c : Dev nD) : W1 m ρ c (Proc.devRef .tc main_v8)
    = transpose Cert.ReferenceIdeal.S256x128 [1, 0] (params m c).w2UserRoot Cert.Net.outT := by
  show StableHlo.after hostOps0 _ (Proc.devRef .tc main_v8) = _
  after_results_simp
  rfl

set_option maxHeartbeats 4000000 in
theorem at1_v9 (c : Dev nD) : W1 m ρ c (Proc.devRef .tc main_v9)
    = (params m c).xUser := by
  show StableHlo.after hostOps0 _ (Proc.devRef .tc main_v9) = _
  after_results_simp
  rfl

set_option maxHeartbeats 4000000 in
theorem at1_v20 (c : Dev nD) : W1 m ρ c (Proc.devRef .tc main_v20)
    = Cert.Net.usersToIssues128 (params m c) (params m c).xUser := by
  show StableHlo.after hostOps0 _ (Proc.devRef .tc main_v20) = _
  after_results_simp
  rfl

set_option maxHeartbeats 4000000 in
theorem at1_v21 (c : Dev nD) : W1 m ρ c (Proc.devRef .tc main_v21)
    = broadcastInDim Cert.ReferenceIdeal.S1x128 ![1] Cert.Net.asRow128 (params m c).bProj := by
  show StableHlo.after hostOps0 _ (Proc.devRef .tc main_v21) = _
  after_results_simp
  exact Cert.Lib.shapeCast_row_eq_broadcastInDim (n := 128) (params m c).bProj shapeCasts_S128_S1x128 Cert.Net.asRow128

set_option maxHeartbeats 4000000 in
theorem at1_v22 (c : Dev nD) : W1 m ρ c (Proc.devRef .tc main_v22)
    = broadcastInDim Cert.ReferenceIdeal.S1x256 ![1] Cert.Net.asRow256 (params m c).b1Issue := by
  show StableHlo.after hostOps0 _ (Proc.devRef .tc main_v22) = _
  after_results_simp
  exact Cert.Lib.shapeCast_row_eq_broadcastInDim (n := 256) (params m c).b1Issue shapeCasts_S256_S1x256 Cert.Net.asRow256

/-! ## After the first launch: the projection and the issues' hidden features -/

theorem at2_v23_1 (c : Dev nD) : W2 m ρ c (Proc.devRef .tc main_v23_1)
    = Cert.Net.projected (params m c) := by
  refine (W2_arr m ρ c 8).trans ((IssueHidden.projected_result (V1 m ρ) c).trans ?_)
  show Cert.Layers.linearLayer (φ₁ := .bf16) (φ₂ := .bf16) IssueHidden.projRowSpreads (W1 m ρ c (Proc.devRef .tc main_arg1))
    (W1 m ρ c (Proc.devRef .tc main_v0)) (W1 m ρ c (Proc.devRef .tc main_v21)) = _
  rw [at1_arg1 m ρ c, at1_v0 m ρ c, at1_v21 m ρ c]
  rfl

theorem at2_v23_0 (c : Dev nD) : W2 m ρ c (Proc.devRef .tc main_v23_0)
    = Cert.Net.hiddenIssues (params m c) := by
  refine (W2_arr m ρ c 7).trans ((IssueHidden.result (V1 m ρ) c).trans ?_)
  show Cert.Layers.convReluLayer (φ₁ := .bf16) (φ₂ := .bf16) (φ₃ := .bf16) (φ₄ := .bf16) IssueHidden.rowSpreads
    IssueHidden.zeroSpreads (W1 m ρ c (Proc.devRef .tc main_v20))
    (Cert.Layers.linearLayer (φ₁ := .bf16) (φ₂ := .bf16) IssueHidden.projRowSpreads (W1 m ρ c (Proc.devRef .tc main_arg1))
      (W1 m ρ c (Proc.devRef .tc main_v0)) (W1 m ρ c (Proc.devRef .tc main_v21)))
    (W1 m ρ c (Proc.devRef .tc main_v1)) (W1 m ρ c (Proc.devRef .tc main_v22)) (W1 m ρ c (Proc.devRef .tc main_v2)) = _
  rw [at1_v20 m ρ c, at1_arg1 m ρ c, at1_v0 m ρ c, at1_v21 m ρ c, at1_v1 m ρ c, at1_v22 m ρ c, at1_v2 m ρ c]
  rfl

theorem at2_v3 (c : Dev nD) : W2 m ρ c (Proc.devRef .tc main_v3)
    = transpose Cert.ReferenceIdeal.S128x256 [1, 0] (params m c).w1UserRel Cert.Net.hidT :=
  (W2_of_ne m ρ c main_v3 (by decide)).trans (at1_v3 m ρ c)

theorem at2_v4 (c : Dev nD) : W2 m ρ c (Proc.devRef .tc main_v4)
    = transpose Cert.ReferenceIdeal.S128x256 [1, 0] (params m c).w1UserRoot Cert.Net.hidT :=
  (W2_of_ne m ρ c main_v4 (by decide)).trans (at1_v4 m ρ c)

theorem at2_v5 (c : Dev nD) : W2 m ρ c (Proc.devRef .tc main_v5)
    = transpose Cert.ReferenceIdeal.S256x128 [1, 0] (params m c).w2IssueRel Cert.Net.outT :=
  (W2_of_ne m ρ c main_v5 (by decide)).trans (at1_v5 m ρ c)

theorem at2_v6 (c : Dev nD) : W2 m ρ c (Proc.devRef .tc main_v6)
    = transpose Cert.ReferenceIdeal.S256x128 [1, 0] (params m c).w2IssueRoot Cert.Net.outT :=
  (W2_of_ne m ρ c main_v6 (by decide)).trans (at1_v6 m ρ c)

theorem at2_v7 (c : Dev nD) : W2 m ρ c (Proc.devRef .tc main_v7)
    = transpose Cert.ReferenceIdeal.S256x128 [1, 0] (params m c).w2UserRel Cert.Net.outT :=
  (W2_of_ne m ρ c main_v7 (by decide)).trans (at1_v7 m ρ c)

theorem at2_v8 (c : Dev nD) : W2 m ρ c (Proc.devRef .tc main_v8)
    = transpose Cert.ReferenceIdeal.S256x128 [1, 0] (params m c).w2UserRoot Cert.Net.outT :=
  (W2_of_ne m ρ c main_v8 (by decide)).trans (at1_v8 m ρ c)

theorem at2_v9 (c : Dev nD) : W2 m ρ c (Proc.devRef .tc main_v9)
    = (params m c).xUser :=
  (W2_of_ne m ρ c main_v9 (by decide)).trans (at1_v9 m ρ c)

theorem at2_arg16 (c : Dev nD) : W2 m ρ c (Proc.devRef .tc main_arg16)
    = (params m c).src :=
  (W2_of_ne m ρ c main_arg16 (by decide)).trans (at1_arg16 m ρ c)

theorem at2_arg17 (c : Dev nD) : W2 m ρ c (Proc.devRef .tc main_arg17)
    = (params m c).dst :=
  (W2_of_ne m ρ c main_arg17 (by decide)).trans (at1_arg17 m ρ c)

theorem at2_arg8 (c : Dev nD) : W2 m ρ c (Proc.devRef .tc main_arg8)
    = (params m c).b1User :=
  (W2_of_ne m ρ c main_arg8 (by decide)).trans (at1_arg8 m ρ c)

theorem at2_arg11 (c : Dev nD) : W2 m ρ c (Proc.devRef .tc main_arg11)
    = (params m c).b2Issue :=
  (W2_of_ne m ρ c main_arg11 (by decide)).trans (at1_arg11 m ρ c)

theorem at2_arg14 (c : Dev nD) : W2 m ρ c (Proc.devRef .tc main_arg14)
    = (params m c).b2User :=
  (W2_of_ne m ρ c main_arg14 (by decide)).trans (at1_arg14 m ρ c)

/-! ## After the second host stretch: the first aggregate towards the users and its layer's bias row -/

theorem at3_v3 (c : Dev nD) : W3 m ρ c (Proc.devRef .tc main_v3)
    = transpose Cert.ReferenceIdeal.S128x256 [1, 0] (params m c).w1UserRel Cert.Net.hidT :=
  (show W3 m ρ c (Proc.devRef .tc main_v3) = W2 m ρ c (Proc.devRef .tc main_v3) by unwritten hostOps1).trans (at2_v3 m ρ c)

theorem at3_v4 (c : Dev nD) : W3 m ρ c (Proc.devRef .tc main_v4)
    = transpose Cert.ReferenceIdeal.S128x256 [1, 0] (params m c).w1UserRoot Cert.Net.hidT :=
  (show W3 m ρ c (Proc.devRef .tc main_v4) = W2 m ρ c (Proc.devRef .tc main_v4) by unwritten hostOps1).trans (at2_v4 m ρ c)

theorem at3_v5 (c : Dev nD) : W3 m ρ c (Proc.devRef .tc main_v5)
    = transpose Cert.ReferenceIdeal.S256x128 [1, 0] (params m c).w2IssueRel Cert.Net.outT :=
  (show W3 m ρ c (Proc.devRef .tc main_v5) = W2 m ρ c (Proc.devRef .tc main_v5) by unwritten hostOps1).trans (at2_v5 m ρ c)

theorem at3_v6 (c : Dev nD) : W3 m ρ c (Proc.devRef .tc main_v6)
    = transpose Cert.ReferenceIdeal.S256x128 [1, 0] (params m c).w2IssueRoot Cert.Net.outT :=
  (show W3 m ρ c (Proc.devRef .tc main_v6) = W2 m ρ c (Proc.devRef .tc main_v6) by unwritten hostOps1).trans (at2_v6 m ρ c)

theorem at3_v7 (c : Dev nD) : W3 m ρ c (Proc.devRef .tc main_v7)
    = transpose Cert.ReferenceIdeal.S256x128 [1, 0] (params m c).w2UserRel Cert.Net.outT :=
  (show W3 m ρ c (Proc.devRef .tc main_v7) = W2 m ρ c (Proc.devRef .tc main_v7) by unwritten hostOps1).trans (at2_v7 m ρ c)

theorem at3_v8 (c : Dev nD) : W3 m ρ c (Proc.devRef .tc main_v8)
    = transpose Cert.ReferenceIdeal.S256x128 [1, 0] (params m c).w2UserRoot Cert.Net.outT :=
  (show W3 m ρ c (Proc.devRef .tc main_v8) = W2 m ρ c (Proc.devRef .tc main_v8) by unwritten hostOps1).trans (at2_v8 m ρ c)

theorem at3_v9 (c : Dev nD) : W3 m ρ c (Proc.devRef .tc main_v9)
    = (params m c).xUser :=
  (show W3 m ρ c (Proc.devRef .tc main_v9) = W2 m ρ c (Proc.devRef .tc main_v9) by unwritten hostOps1).trans (at2_v9 m ρ c)

theorem at3_v23_0 (c : Dev nD) : W3 m ρ c (Proc.devRef .tc main_v23_0)
    = Cert.Net.hiddenIssues (params m c) :=
  (show W3 m ρ c (Proc.devRef .tc main_v23_0) = W2 m ρ c (Proc.devRef .tc main_v23_0) by unwritten hostOps1).trans (at2_v23_0 m ρ c)

theorem at3_arg16 (c : Dev nD) : W3 m ρ c (Proc.devRef .tc main_arg16)
    = (params m c).src :=
  (show W3 m ρ c (Proc.devRef .tc main_arg16) = W2 m ρ c (Proc.devRef .tc main_arg16) by unwritten hostOps1).trans (at2_arg16 m ρ c)

theorem at3_arg17 (c : Dev nD) : W3 m ρ c (Proc.devRef .tc main_arg17)
    = (params m c).dst :=
  (show W3 m ρ c (Proc.devRef .tc main_arg17) = W2 m ρ c (Proc.devRef .tc main_arg17) by unwritten hostOps1).trans (at2_arg17 m ρ c)

theorem at3_arg11 (c : Dev nD) : W3 m ρ c (Proc.devRef .tc main_arg11)
    = (params m c).b2Issue :=
  (show W3 m ρ c (Proc.devRef .tc main_arg11) = W2 m ρ c (Proc.devRef .tc main_arg11) by unwritten hostOps1).trans (at2_arg11 m ρ c)

theorem at3_arg14 (c : Dev nD) : W3 m ρ c (Proc.devRef .tc main_arg14)
    = (params m c).b2User :=
  (show W3 m ρ c (Proc.devRef .tc main_arg14) = W2 m ρ c (Proc.devRef .tc main_arg14) by unwritten hostOps1).trans (at2_arg14 m ρ c)

set_option maxHeartbeats 4000000 in
theorem at3_v34 (c : Dev nD) : W3 m ρ c (Proc.devRef .tc main_v34)
    = Cert.Net.issuesToUsers128 (params m c) (Cert.Net.projected (params m c)) := by
  show StableHlo.after hostOps1 _ (Proc.devRef .tc main_v34) = _
  after_results_simp
  rw [at2_arg16 m ρ c, at2_arg17 m ρ c, at2_v23_1 m ρ c]
  rfl

set_option maxHeartbeats 4000000 in
theorem at3_v35 (c : Dev nD) : W3 m ρ c (Proc.devRef .tc main_v35)
    = broadcastInDim Cert.ReferenceIdeal.S1x256 ![1] Cert.Net.asRow256 (params m c).b1User := by
  show StableHlo.after hostOps1 _ (Proc.devRef .tc main_v35) = _
  after_results_simp
  rw [at2_arg8 m ρ c]
  exact Cert.Lib.shapeCast_row_eq_broadcastInDim (n := 256) (params m c).b1User shapeCasts_S256_S1x256 Cert.Net.asRow256

/-! ## After the second launch: the users' hidden features -/

theorem at4_v36 (c : Dev nD) : W4 m ρ c (Proc.devRef .tc main_v36)
    = Cert.Net.hiddenUsers (params m c) := by
  refine (W4_arr m ρ c 5).trans ((UserHidden.result (V3 m ρ) c).trans ?_)
  show Cert.Layers.convReluLayer (φ₁ := .f32) (φ₂ := .bf16) (φ₃ := .bf16) (φ₄ := .bf16) UserHidden.rowSpreads
    UserHidden.zeroSpreads (W3 m ρ c (Proc.devRef .tc main_v34)) (W3 m ρ c (Proc.devRef .tc main_v9)) (W3 m ρ c (Proc.devRef .tc main_v3))
    (W3 m ρ c (Proc.devRef .tc main_v35)) (W3 m ρ c (Proc.devRef .tc main_v4)) = _
  rw [at3_v34 m ρ c, at3_v9 m ρ c, at3_v3 m ρ c, at3_v35 m ρ c, at3_v4 m ρ c]
  rfl

theorem at4_v5 (c : Dev nD) : W4 m ρ c (Proc.devRef .tc main_v5)
    = transpose Cert.ReferenceIdeal.S256x128 [1, 0] (params m c).w2IssueRel Cert.Net.outT :=
  (W4_of_ne m ρ c main_v5 (by decide)).trans (at3_v5 m ρ c)

theorem at4_v6 (c : Dev nD) : W4 m ρ c (Proc.devRef .tc main_v6)
    = transpose Cert.ReferenceIdeal.S256x128 [1, 0] (params m c).w2IssueRoot Cert.Net.outT :=
  (W4_of_ne m ρ c main_v6 (by decide)).trans (at3_v6 m ρ c)

theorem at4_v7 (c : Dev nD) : W4 m ρ c (Proc.devRef .tc main_v7)
    = transpose Cert.ReferenceIdeal.S256x128 [1, 0] (params m c).w2UserRel Cert.Net.outT :=
  (W4_of_ne m ρ c main_v7 (by decide)).trans (at3_v7 m ρ c)

theorem at4_v8 (c : Dev nD) : W4 m ρ c (Proc.devRef .tc main_v8)
    = transpose Cert.ReferenceIdeal.S256x128 [1, 0] (params m c).w2UserRoot Cert.Net.outT :=
  (W4_of_ne m ρ c main_v8 (by decide)).trans (at3_v8 m ρ c)

theorem at4_v23_0 (c : Dev nD) : W4 m ρ c (Proc.devRef .tc main_v23_0)
    = Cert.Net.hiddenIssues (params m c) :=
  (W4_of_ne m ρ c main_v23_0 (by decide)).trans (at3_v23_0 m ρ c)

theorem at4_arg16 (c : Dev nD) : W4 m ρ c (Proc.devRef .tc main_arg16)
    = (params m c).src :=
  (W4_of_ne m ρ c main_arg16 (by decide)).trans (at3_arg16 m ρ c)

theorem at4_arg17 (c : Dev nD) : W4 m ρ c (Proc.devRef .tc main_arg17)
    = (params m c).dst :=
  (W4_of_ne m ρ c main_arg17 (by decide)).trans (at3_arg17 m ρ c)

theorem at4_arg11 (c : Dev nD) : W4 m ρ c (Proc.devRef .tc main_arg11)
    = (params m c).b2Issue :=
  (W4_of_ne m ρ c main_arg11 (by decide)).trans (at3_arg11 m ρ c)

theorem at4_arg14 (c : Dev nD) : W4 m ρ c (Proc.devRef .tc main_arg14)
    = (params m c).b2User :=
  (W4_of_ne m ρ c main_arg14 (by decide)).trans (at3_arg14 m ρ c)

/-! ## After the third host stretch: the second aggregate towards the issues and its layer's bias row -/

theorem at5_v5 (c : Dev nD) : W5 m ρ c (Proc.devRef .tc main_v5)
    = transpose Cert.ReferenceIdeal.S256x128 [1, 0] (params m c).w2IssueRel Cert.Net.outT :=
  (show W5 m ρ c (Proc.devRef .tc main_v5) = W4 m ρ c (Proc.devRef .tc main_v5) by unwritten hostOps2).trans (at4_v5 m ρ c)

theorem at5_v6 (c : Dev nD) : W5 m ρ c (Proc.devRef .tc main_v6)
    = transpose Cert.ReferenceIdeal.S256x128 [1, 0] (params m c).w2IssueRoot Cert.Net.outT :=
  (show W5 m ρ c (Proc.devRef .tc main_v6) = W4 m ρ c (Proc.devRef .tc main_v6) by unwritten hostOps2).trans (at4_v6 m ρ c)

theorem at5_v7 (c : Dev nD) : W5 m ρ c (Proc.devRef .tc main_v7)
    = transpose Cert.ReferenceIdeal.S256x128 [1, 0] (params m c).w2UserRel Cert.Net.outT :=
  (show W5 m ρ c (Proc.devRef .tc main_v7) = W4 m ρ c (Proc.devRef .tc main_v7) by unwritten hostOps2).trans (at4_v7 m ρ c)

theorem at5_v8 (c : Dev nD) : W5 m ρ c (Proc.devRef .tc main_v8)
    = transpose Cert.ReferenceIdeal.S256x128 [1, 0] (params m c).w2UserRoot Cert.Net.outT :=
  (show W5 m ρ c (Proc.devRef .tc main_v8) = W4 m ρ c (Proc.devRef .tc main_v8) by unwritten hostOps2).trans (at4_v8 m ρ c)

theorem at5_v23_0 (c : Dev nD) : W5 m ρ c (Proc.devRef .tc main_v23_0)
    = Cert.Net.hiddenIssues (params m c) :=
  (show W5 m ρ c (Proc.devRef .tc main_v23_0) = W4 m ρ c (Proc.devRef .tc main_v23_0) by unwritten hostOps2).trans (at4_v23_0 m ρ c)

theorem at5_v36 (c : Dev nD) : W5 m ρ c (Proc.devRef .tc main_v36)
    = Cert.Net.hiddenUsers (params m c) :=
  (show W5 m ρ c (Proc.devRef .tc main_v36) = W4 m ρ c (Proc.devRef .tc main_v36) by unwritten hostOps2).trans (at4_v36 m ρ c)

theorem at5_arg16 (c : Dev nD) : W5 m ρ c (Proc.devRef .tc main_arg16)
    = (params m c).src :=
  (show W5 m ρ c (Proc.devRef .tc main_arg16) = W4 m ρ c (Proc.devRef .tc main_arg16) by unwritten hostOps2).trans (at4_arg16 m ρ c)

theorem at5_arg17 (c : Dev nD) : W5 m ρ c (Proc.devRef .tc main_arg17)
    = (params m c).dst :=
  (show W5 m ρ c (Proc.devRef .tc main_arg17) = W4 m ρ c (Proc.devRef .tc main_arg17) by unwritten hostOps2).trans (at4_arg17 m ρ c)

theorem at5_arg14 (c : Dev nD) : W5 m ρ c (Proc.devRef .tc main_arg14)
    = (params m c).b2User :=
  (show W5 m ρ c (Proc.devRef .tc main_arg14) = W4 m ρ c (Proc.devRef .tc main_arg14) by unwritten hostOps2).trans (at4_arg14 m ρ c)

set_option maxHeartbeats 4000000 in
theorem at5_v47 (c : Dev nD) : W5 m ρ c (Proc.devRef .tc main_v47)
    = Cert.Net.usersToIssues256 (params m c) (Cert.Net.hiddenUsers (params m c)) := by
  show StableHlo.after hostOps2 _ (Proc.devRef .tc main_v47) = _
  after_results_simp
  rw [at4_arg16 m ρ c, at4_arg17 m ρ c, at4_v36 m ρ c]
  rfl

set_option maxHeartbeats 4000000 in
theorem at5_v48 (c : Dev nD) : W5 m ρ c (Proc.devRef .tc main_v48)
    = broadcastInDim Cert.ReferenceIdeal.S1x128 ![1] Cert.Net.asRow128 (params m c).b2Issue := by
  show StableHlo.after hostOps2 _ (Proc.devRef .tc main_v48) = _
  after_results_simp
  rw [at4_arg11 m ρ c]
  exact Cert.Lib.shapeCast_row_eq_broadcastInDim (n := 128) (params m c).b2Issue shapeCasts_S128_S1x128 Cert.Net.asRow128

/-! ## After the third launch: the issues' output features -/

theorem at6_v49 (c : Dev nD) : W6 m ρ c (Proc.devRef .tc main_v49)
    = Cert.Net.outIssues (params m c) := by
  refine (W6_arr m ρ c 5).trans ((IssueOut.result (V5 m ρ) c).trans ?_)
  show Cert.Layers.convLayer (φ₁ := .f32) (φ₂ := .bf16) (φ₃ := .bf16) (φ₄ := .bf16) IssueOut.rowSpreads
    (W5 m ρ c (Proc.devRef .tc main_v47)) (W5 m ρ c (Proc.devRef .tc main_v23_0)) (W5 m ρ c (Proc.devRef .tc main_v5))
    (W5 m ρ c (Proc.devRef .tc main_v48)) (W5 m ρ c (Proc.devRef .tc main_v6)) = _
  rw [at5_v47 m ρ c, at5_v23_0 m ρ c, at5_v5 m ρ c, at5_v48 m ρ c, at5_v6 m ρ c]
  rfl

theorem at6_v7 (c : Dev nD) : W6 m ρ c (Proc.devRef .tc main_v7)
    = transpose Cert.ReferenceIdeal.S256x128 [1, 0] (params m c).w2UserRel Cert.Net.outT :=
  (W6_of_ne m ρ c main_v7 (by decide)).trans (at5_v7 m ρ c)

theorem at6_v8 (c : Dev nD) : W6 m ρ c (Proc.devRef .tc main_v8)
    = transpose Cert.ReferenceIdeal.S256x128 [1, 0] (params m c).w2UserRoot Cert.Net.outT :=
  (W6_of_ne m ρ c main_v8 (by decide)).trans (at5_v8 m ρ c)

theorem at6_v23_0 (c : Dev nD) : W6 m ρ c (Proc.devRef .tc main_v23_0)
    = Cert.Net.hiddenIssues (params m c) :=
  ((W6_arr m ρ c 1).trans (((dat2 (V5 m ρ) c).arrAt_in 1 rfl _).trans (A_eq2 (V5 m ρ) c 1))).trans (at5_v23_0 m ρ c)

theorem at6_v36 (c : Dev nD) : W6 m ρ c (Proc.devRef .tc main_v36)
    = Cert.Net.hiddenUsers (params m c) :=
  (W6_of_ne m ρ c main_v36 (by decide)).trans (at5_v36 m ρ c)

theorem at6_arg16 (c : Dev nD) : W6 m ρ c (Proc.devRef .tc main_arg16)
    = (params m c).src :=
  (W6_of_ne m ρ c main_arg16 (by decide)).trans (at5_arg16 m ρ c)

theorem at6_arg17 (c : Dev nD) : W6 m ρ c (Proc.devRef .tc main_arg17)
    = (params m c).dst :=
  (W6_of_ne m ρ c main_arg17 (by decide)).trans (at5_arg17 m ρ c)

theorem at6_arg14 (c : Dev nD) : W6 m ρ c (Proc.devRef .tc main_arg14)
    = (params m c).b2User :=
  (W6_of_ne m ρ c main_arg14 (by decide)).trans (at5_arg14 m ρ c)

/-! ## After the fourth host stretch: the second aggregate towards the users and its layer's bias row -/

theorem at7_v7 (c : Dev nD) : W7 m ρ c (Proc.devRef .tc main_v7)
    = transpose Cert.ReferenceIdeal.S256x128 [1, 0] (params m c).w2UserRel Cert.Net.outT :=
  (show W7 m ρ c (Proc.devRef .tc main_v7) = W6 m ρ c (Proc.devRef .tc main_v7) by unwritten hostOps3).trans (at6_v7 m ρ c)

theorem at7_v8 (c : Dev nD) : W7 m ρ c (Proc.devRef .tc main_v8)
    = transpose Cert.ReferenceIdeal.S256x128 [1, 0] (params m c).w2UserRoot Cert.Net.outT :=
  (show W7 m ρ c (Proc.devRef .tc main_v8) = W6 m ρ c (Proc.devRef .tc main_v8) by unwritten hostOps3).trans (at6_v8 m ρ c)

theorem at7_v36 (c : Dev nD) : W7 m ρ c (Proc.devRef .tc main_v36)
    = Cert.Net.hiddenUsers (params m c) :=
  (show W7 m ρ c (Proc.devRef .tc main_v36) = W6 m ρ c (Proc.devRef .tc main_v36) by unwritten hostOps3).trans (at6_v36 m ρ c)

theorem at7_v49 (c : Dev nD) : W7 m ρ c (Proc.devRef .tc main_v49)
    = Cert.Net.outIssues (params m c) :=
  (show W7 m ρ c (Proc.devRef .tc main_v49) = W6 m ρ c (Proc.devRef .tc main_v49) by unwritten hostOps3).trans (at6_v49 m ρ c)

set_option maxHeartbeats 4000000 in
theorem at7_v60 (c : Dev nD) : W7 m ρ c (Proc.devRef .tc main_v60)
    = Cert.Net.issuesToUsers256 (params m c) (Cert.Net.hiddenIssues (params m c)) := by
  show StableHlo.after hostOps3 _ (Proc.devRef .tc main_v60) = _
  after_results_simp
  rw [at6_arg16 m ρ c, at6_arg17 m ρ c, at6_v23_0 m ρ c]
  rfl

set_option maxHeartbeats 4000000 in
theorem at7_v61 (c : Dev nD) : W7 m ρ c (Proc.devRef .tc main_v61)
    = broadcastInDim Cert.ReferenceIdeal.S1x128 ![1] Cert.Net.asRow128 (params m c).b2User := by
  show StableHlo.after hostOps3 _ (Proc.devRef .tc main_v61) = _
  after_results_simp
  rw [at6_arg14 m ρ c]
  exact Cert.Lib.shapeCast_row_eq_broadcastInDim (n := 128) (params m c).b2User shapeCasts_S128_S1x128 Cert.Net.asRow128

/-! ## After the fourth launch: the users' output features; the issues' are untouched -/

theorem at8_v62 (c : Dev nD) : W8 m ρ c (Proc.devRef .tc main_v62)
    = Cert.Net.outUsers (params m c) := by
  refine (W8_arr m ρ c 5).trans ((UserOut.result (V7 m ρ) c).trans ?_)
  show Cert.Layers.convLayer (φ₁ := .f32) (φ₂ := .bf16) (φ₃ := .bf16) (φ₄ := .bf16) UserOut.rowSpreads
    (W7 m ρ c (Proc.devRef .tc main_v60)) (W7 m ρ c (Proc.devRef .tc main_v36)) (W7 m ρ c (Proc.devRef .tc main_v7))
    (W7 m ρ c (Proc.devRef .tc main_v61)) (W7 m ρ c (Proc.devRef .tc main_v8)) = _
  rw [at7_v60 m ρ c, at7_v36 m ρ c, at7_v7 m ρ c, at7_v61 m ρ c, at7_v8 m ρ c]
  rfl

theorem at8_v49 (c : Dev nD) : W8 m ρ c (Proc.devRef .tc main_v49)
    = Cert.Net.outIssues (params m c) :=
  (W8_of_ne m ρ c main_v49 (by decide)).trans (at7_v49 m ρ c)

end Cert.KernelIdeal.Boundaries

end
-- ==== Proof.KernelValue.lean ====
/-
  The idealized kernel's run, with its two results named: the network's outputs at the argument arrays.

  Every weakly fair execution ends with every lasting buffer at the last boundary of the fold through the program
  (KernelRun.lean); at that boundary the two result buffers hold the network's outputs for the issues and for the users
  (KernelBoundaries.lean), and each argument buffer what it held at launch.
-/
import proofs.«142014_j32839319945244_2_alg».proof.Proof.KernelRun
import proofs.«142014_j32839319945244_2_alg».proof.Proof.KernelBoundaries

set_option maxRecDepth 16384

noncomputable section

namespace Cert.KernelIdeal.NetValue

open Cert.KernelIdeal Cert.KernelIdeal.Gen Cert.KernelIdeal.Boundaries
open Idealize.ShloMosaic Idealize.ShloMosaic.TcCoe Idealize.SL.Sem

/-- Every weakly fair execution of the idealized kernel terminates, nothing faulting, with the two results at the network's
    outputs of the argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49) = Cert.Net.outIssues (params m c)
      ∧ r.2.mem ((c.tc : Thread nD τ).loc main_v62) = Cert.Net.outUsers (params m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v49 (by decide))).trans (at8_v49 m ρ c),
     (h c _ (mem_uc main_v62 (by decide))).trans (at8_v62 m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c),
     (h c _ (mem_uc main_arg16 (by decide))).trans (W8_main_arg16 m ρ c),
     (h c _ (mem_uc main_arg17 (by decide))).trans (W8_main_arg17 m ρ c)⟩)
    (Cert.KernelIdeal.WholeRun.run_all (F := Ideal) m ρ)

end Cert.KernelIdeal.NetValue

end
-- ==== Proof.ReferenceNet.lean ====
/-
  The reference computes the network.

  The reference's run ends with each result at the composition of its host operations applied to the argument arrays. Read
  layer by layer that composition is the network of Net.lean at the arguments: the projection, the two rectified
  convolutions over 128-wide aggregates, the two output convolutions over 256-wide aggregates.
-/
import proofs.«142014_j32839319945244_2_alg».proof.Proof.Gen.ReferenceIdeal.Run
import proofs.«142014_j32839319945244_2_alg».proof.Proof.Net

set_option maxRecDepth 16384

noncomputable section

namespace Cert.ReferenceIdeal.Network

open Cert.ReferenceIdeal Cert.ReferenceIdeal.Gen Cert.ReferenceIdeal.Value
open Idealize.ShloMosaic Idealize.ShloMosaic.TcCoe Idealize.SL.Sem

/-- The argument arrays of a memory, on one core. -/
def params (m : (ℓ : Loc nD τ sig) → Buf (Elt Ideal) ℓ) (c : Dev nD) : Cert.Net.Params where
  xUser := m ((c.tc : Thread nD τ).loc main_arg0)
  xIssue := m ((c.tc : Thread nD τ).loc main_arg1)
  wProj := m ((c.tc : Thread nD τ).loc main_arg2)
  bProj := m ((c.tc : Thread nD τ).loc main_arg3)
  w1IssueRel := m ((c.tc : Thread nD τ).loc main_arg4)
  b1Issue := m ((c.tc : Thread nD τ).loc main_arg5)
  w1IssueRoot := m ((c.tc : Thread nD τ).loc main_arg6)
  w1UserRel := m ((c.tc : Thread nD τ).loc main_arg7)
  b1User := m ((c.tc : Thread nD τ).loc main_arg8)
  w1UserRoot := m ((c.tc : Thread nD τ).loc main_arg9)
  w2IssueRel := m ((c.tc : Thread nD τ).loc main_arg10)
  b2Issue := m ((c.tc : Thread nD τ).loc main_arg11)
  w2IssueRoot := m ((c.tc : Thread nD τ).loc main_arg12)
  w2UserRel := m ((c.tc : Thread nD τ).loc main_arg13)
  b2User := m ((c.tc : Thread nD τ).loc main_arg14)
  w2UserRoot := m ((c.tc : Thread nD τ).loc main_arg15)
  src := m ((c.tc : Thread nD τ).loc main_arg16)
  dst := m ((c.tc : Thread nD τ).loc main_arg17)

/-- The reference's first result is the network's output for the issues. -/
theorem out_issues (m : (ℓ : Loc nD τ sig) → Buf (Elt Ideal) ℓ) (c : Dev nD) :
    res_main_v60 (F := Ideal) m c = Cert.Net.outIssues (params m c) := by
  unfold res_main_v60 Cert.Net.outIssues Cert.Net.hiddenIssues Cert.Net.hiddenUsers Cert.Net.projected
    Cert.Net.usersToIssues256 Cert.Net.usersToIssues128 Cert.Net.issuesToUsers128
    Cert.Net.rowsOf Cert.Net.slotsOf Cert.Layers.convLayer Cert.Layers.convReluLayer Cert.Layers.convLayer
    Cert.Layers.linearLayer params
  rfl

/-- The reference's second result is the network's output for the users. -/
theorem out_users (m : (ℓ : Loc nD τ sig) → Buf (Elt Ideal) ℓ) (c : Dev nD) :
    res_main_v78 (F := Ideal) m c = Cert.Net.outUsers (params m c) := by
  unfold res_main_v78 Cert.Net.outUsers Cert.Net.hiddenIssues Cert.Net.hiddenUsers Cert.Net.projected
    Cert.Net.issuesToUsers256 Cert.Net.usersToIssues128 Cert.Net.issuesToUsers128
    Cert.Net.rowsOf Cert.Net.slotsOf Cert.Layers.convLayer Cert.Layers.convReluLayer Cert.Layers.convLayer
    Cert.Layers.linearLayer params
  rfl

end Cert.ReferenceIdeal.Network

end
-- ==== Proof.lean ====
/-
  The certificate's claim: the row-tiled kernels compute the two-layer user–issue graph network the reference computes.

  The three frames. The kernel's, at the word level and idealized, is the launch-by-launch run of its four row-tiled
  launches among their host stretches. The reference is host operations only, and its frame is its run with the results
  dropped.

  The idealization rewrote no operation, so there is nothing to preserve beyond the program's own text read over the
  extended reals.

  The two idealized programs, from memories that agree on the arguments, both end with the network's two outputs at the
  argument arrays (Net.lean). The reference's composed host operations are the network by definition (ReferenceNet.lean). The
  kernel tiles every layer by blocks of 4000 rows; a row of a matrix product depends on the same row of its left factor
  only, so each block written is that block of the whole-array layer, and the blocks tile the rows
  (LibConvBlock.lean; the four layer modules); between the launches the kernel's host operations are the reference's up to
  format changes, which are the identity over the extended reals, and up to how a bias vector is laid out as a row
  (KernelBoundaries.lean). No sum is reordered and no product distributed, so the inputs' finiteness is never used.
-/
import proofs.«142014_j32839319945244_2_alg».proof.Defs
import proofs.«142014_j32839319945244_2_alg».proof.Proof.Gen.Kernel
import proofs.«142014_j32839319945244_2_alg».proof.Proof.Gen.Kernel.Skeleton
import proofs.«142014_j32839319945244_2_alg».proof.Proof.Gen.Kernel.Launch
import proofs.«142014_j32839319945244_2_alg».proof.Proof.Gen.Kernel.Points
import proofs.«142014_j32839319945244_2_alg».proof.Proof.Gen.Kernel.Frame
import proofs.«142014_j32839319945244_2_alg».proof.Proof.Gen.KernelIdeal
import proofs.«142014_j32839319945244_2_alg».proof.Proof.Gen.KernelIdeal.Skeleton
import proofs.«142014_j32839319945244_2_alg».proof.Proof.Gen.KernelIdeal.Launch
import proofs.«142014_j32839319945244_2_alg».proof.Proof.Gen.KernelIdeal.Points
import proofs.«142014_j32839319945244_2_alg».proof.Proof.Gen.KernelIdeal.Frame
import proofs.«142014_j32839319945244_2_alg».proof.Proof.Gen.ReferenceIdeal
import proofs.«142014_j32839319945244_2_alg».proof.Proof.Gen.Pre_finite_inputs
import proofs.«142014_j32839319945244_2_alg».proof.Proof.Gen.ReferenceIdeal.Run
import proofs.«142014_j32839319945244_2_alg».proof.Proof.KernelValue
import proofs.«142014_j32839319945244_2_alg».proof.Proof.ReferenceNet
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Memories that agree on the arguments have the same argument arrays. -/
theorem params_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Network.params m' c = Cert.KernelIdeal.Boundaries.params m c := by
  unfold Cert.ReferenceIdeal.Network.params Cert.KernelIdeal.Boundaries.params
  rw [h0, h1, h2, h3, h4, h5, h6, h7, h8, h9, h10, h11, h12, h13, h14, h15, h16, h17]

/-- Both idealized programs end with the network's two outputs at the argument arrays. -/
theorem algebraic : Cert.algebraic_KernelIdeal_ReferenceIdeal := by
  intro m ρ m' ρ' _ hagree
  refine ⟨fun c => Cert.Net.outIssues (Cert.KernelIdeal.Boundaries.params m c),
    fun c => Cert.Net.outUsers (Cert.KernelIdeal.Boundaries.params m c),
    Cert.KernelIdeal.NetValue.run m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11, h12, h13, h14, h15, h16, h17⟩ := hagree c
  have e := params_agree m m' c h0 h1 h2 h3 h4 h5 h6 h7 h8 h9 h10 h11 h12 h13 h14 h15 h16 h17
  exact ⟨(h c).1.trans ((Cert.ReferenceIdeal.Network.out_issues m' c).trans (congrArg Cert.Net.outIssues e)),
    (h c).2.1.trans ((Cert.ReferenceIdeal.Network.out_users m' c).trans (congrArg Cert.Net.outUsers e)), (h c).2.2⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
